-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64 : Shape := ⟨3, ![8, 64, 64]⟩
abbrev S_ : Shape := ⟨0, ![]⟩

class Facts : Prop where
  bcast_S_S8x64x64 : S_.BroadcastsInDim S8x64x64 (![] : Fin 0 → Fin S8x64x64.rank)
  reducesTo_S8x64x64_S_d0_1_2 : S8x64x64.ReducesTo [0, 1, 2] S_
  h_S_ : 0 < S_.numel

variable [Facts]

def fn {F : FTy → Type} [FloatOps F] (main_arg0 : FVec F S8x64x64 .f32) (main_arg1 : FVec F S8x64x64 .f32) : IVec S_ 1 :=
  let main_v0 : FVec F S8x64x64 .f32 := Host.absf main_arg0
  let main_cst : FVec F S_ .f32 := constant S_ .f32 0x7F800000#32
  let main_v1 : FVec F S8x64x64 .f32 := broadcastInDim S8x64x64 ![] bcast_S_S8x64x64 main_cst
  let main_v2 : IVec S8x64x64 1 := cmpf .olt main_v0 main_v1
  let main_c : IVec S_ 1 := constantI S_ 1 1#1
  let main_v3 : IVec S_ 1 := (fun x v => Host.reduce IntOp.andi x v reducesTo_S8x64x64_S_d0_1_2 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  main_v8
-- ==== Kernel.lean ====
abbrev S8x64x64 : Shape := ⟨3, ![8, 64, 64]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S8x1x4096 : Shape := ⟨3, ![8, 1, 4096]⟩
abbrev S8x1x128 : Shape := ⟨3, ![8, 1, 128]⟩
abbrev S1x1x512 : Shape := ⟨3, ![1, 1, 512]⟩
abbrev S1x1x128 : Shape := ⟨3, ![1, 1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩

abbrev nBuf : Space → Nat
  | .hbm => 47
  | .vmem => 10
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .i1⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .i1⟩
  | .hbm, ⟨16, _⟩ => ⟨S8x4096, .f32⟩
  | .hbm, ⟨17, _⟩ => ⟨S8x1x4096, .f32⟩
  | .hbm, ⟨18, _⟩ => ⟨S8x1x4096, .f32⟩
  | .hbm, ⟨19, _⟩ => ⟨S8x1x4096, .f32⟩
  | .hbm, ⟨20, _⟩ => ⟨S8x1x128, .f32⟩
  | .hbm, ⟨21, _⟩ => ⟨S8x1x1, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .i1⟩
  | .hbm, ⟨34, _⟩ => ⟨S_, .f32⟩
  | .hbm, ⟨35, _⟩ => ⟨S8, .f32⟩
  | .hbm, ⟨36, _⟩ => ⟨S8, .i1⟩
  | .hbm, ⟨37, _⟩ => ⟨S8, .i1⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x128, .f32⟩
  | .local _ .vmem, ⟨9, _⟩ => ⟨S1x1x128, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S8x64x64_S8x4096 : S8x64x64.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  shapeCasts_S8x4096_S8x1x4096 : S8x4096.ShapeCasts S8x1x4096
  inb_S1x1x128_S1x1x128_0_0_0 : ∀ a, (![0, 0, 0] : Fin 3 → Nat) a + S1x1x128.size a ≤ S1x1x128.size a
  h_S1x1x128 : 0 < S1x1x128.numel
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [0] S512
  reduces_S1x512_S1 : S1x512.Reduces [1] S1
  shapeCasts_S1_S1x1 : S1.ShapeCasts S1x1
  shapeCasts_S1x1x128_S1x1x128 : S1x1x128.ShapeCasts S1x1x128
  shapeCasts_S1x1_S1x1x1 : S1x1.ShapeCasts S1x1x1
  broadcasts_S1x1x1_S1x1x128 : S1x1x1.Broadcasts S1x1x128
  slices_S8x1x128_S8x1x1_0_0_0 : S8x1x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S8x1x4096.size a
  hwx0_0 : ∀ i : grid0.Coords, EltTy.bits .f32 = 32 ∨ (Rect.block (s := S8x1x4096) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x4096.size a
  hwx0_1 : ∀ i : grid0.Coords, EltTy.bits .f32 = 32 ∨ (Rect.block (s := S8x1x4096) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

abbrev win0_0 : Pipeline.Window sig grid0 :=
  Pipeline.Window.ofSpec (Memref.whole main_v12) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x64 : Shape := ⟨3, ![8, 64, 64]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S8x4096x1 : Shape := ⟨3, ![8, 4096, 1]⟩
abbrev S8x1x4096 : Shape := ⟨3, ![8, 1, 4096]⟩
abbrev S8x4096x4096 : Shape := ⟨3, ![8, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .i1⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .i1⟩
  | .hbm, ⟨16, _⟩ => ⟨S8x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x1, .f32⟩
  | .hbm, ⟨26, _⟩ => ⟨S8x1x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .i1⟩
  | .hbm, ⟨47, _⟩ => ⟨S_, .f32⟩
  | .hbm, ⟨48, _⟩ => ⟨S8, .f32⟩
  | .hbm, ⟨49, _⟩ => ⟨S8, .i1⟩
  | .hbm, ⟨50, _⟩ => ⟨S8, .i1⟩
  | .hbm, ⟨51, _⟩ => ⟨S8, .f32⟩
  | .hbm, ⟨52, _⟩ => ⟨S_, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_cst : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  shapeCasts_S8x64x64_S8x4096 : S8x64x64.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8_d1_2 : S8x4096x4096.ReducesTo [1, 2] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.KBBase.lean ====
/-
  The pairwise-margin kernel's region, seen from one core: the arrays as the region finds them, each window's
  block at a grid point, and the one branch of the body — "first (i, j) tile of this sample", which zeroes the
  accumulator — decided over the 8 x 8 x 8 grid in closed form (point t is the tile (i, j) = (t / 8 % 8, t % 8) of
  sample t / 64, so the branch is taken exactly when t is a multiple of 64).
-/
import proofs.«140618_j16037407883702_2_alg».proof.Proof.Gen.Kernel.Launch
import proofs.«140618_j16037407883702_2_alg».proof.Proof.Gen.Kernel.Skeleton
import proofs.«140618_j16037407883702_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation of the host operations; -/
abbrev V₀ (c : Dev nD) : Valuation τ sig (Elt F) := fun b => m ((c : Dev nD), b)
/-- and when the region is entered: the eighteen host operations before it have run (the normalised scores
    and the two masks are in place). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- "This is the first tile of the sample": both inner grid coordinates are zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

abbrev VO0_4 : View sig .tc .vmem S1x1x128 .f32 := (Memref.whole cc0_stg4_0 : Memref sig .tc .vmem S1x1x128 .f32).view
abbrev ms0_0 (t : Fin cfg0.N) : Memref sig .tc .vmem S1x1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.Kernel.Hand

end
-- ==== Proof.KBRunA.lean ====
/-
  The body of the pairwise-margin kernel run once, on any whole staging memrefs, at a grid point where the
  "first tile of the sample" branch is TAKEN: the accumulator block is first overwritten with zeros, then the tile's masked sum is added to it.
  The four input blocks are read and left as they were; what the accumulator block ends with is recorded as the list
  of pieces the stores wrote.
-/
import proofs.«140618_j16037407883702_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's staging memref (last first), with the proof that from the
    four input memrefs at their contents and the accumulator's at anything the body runs to any continuation
    that holds the inputs as they were and the accumulator with those pieces written. -/
noncomputable def kernelRun0_A (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) :
    { L4 : List (View.Piece (Elt F) S1x1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.KBRunB.lean ====
/-
  The body of the pairwise-margin kernel run once, on any whole staging memrefs, at a grid point where the
  "first tile of the sample" branch is NOT taken: the tile's masked sum is added to what the accumulator block already holds.
  The four input blocks are read and left as they were; what the accumulator block ends with is recorded as the list
  of pieces the stores wrote.
-/
import proofs.«140618_j16037407883702_2_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's staging memref (last first), with the proof that from the
    four input memrefs at their contents and the accumulator's at its running contents the body runs to any continuation
    that holds the inputs as they were and the accumulator with those pieces written. -/
noncomputable def kernelRun0_B (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) :
    { L4 : List (View.Piece (Elt F) S1x1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.KBFrame.lean ====
/-
  What the accumulator block holds after each grid point, the proof data of the pipelined region, and the body
  obligation at a generic point.

  Point t is tile (i, j) of sample b = t / 64. At the sample's first tile (t a multiple of 64) the body zeroes the
  accumulator block and adds the tile's masked sum; at each of the 63 later tiles it adds the tile's masked sum to what
  the point before left — the block is not written back in between, only after the sample's last tile (t ≡ 63 mod 64).
  The four input windows are only read: after the body each staging buffer still holds its block of the array. Two of
  them (the row scores and the column scores) are blocks of ONE array, so that array is held as two half shares.
-/
import proofs.«140618_j16037407883702_2_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator block -/

/-- The first-tile case's pieces tile the accumulator block, so they cover it. -/
theorem cover0_A_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) (y : S1x1x128.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x1x128.size (by sl_kernel_rfl) y

/-- What the first-tile case leaves in the accumulator block: its pieces read back. -/
def out0_A_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) : Vec F S1x1x128 .f32 :=
  VO0_4.read (Elt F) (VO0_4.writes (Elt F) VO0_4.junk (kernelRun0_A c i arg3 harg3 arg4 harg4 arg5 harg5 arg6 harg6 arg7 harg7 hc0 x0 x1 x2 x3).1)

/-- The later-tile case's pieces tile the accumulator block, so they cover it. -/
theorem cover0_B_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) (y : S1x1x128.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x1x128.size (by sl_kernel_rfl) y

/-- What the later-tile case leaves in the accumulator block: its pieces read back. -/
def out0_B_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) : Vec F S1x1x128 .f32 :=
  VO0_4.read (Elt F) (VO0_4.writes (Elt F) VO0_4.junk (kernelRun0_B c i arg3 harg3 arg4 harg4 arg5 harg5 arg6 harg6 arg7 harg7 hc0 x0 x1 x2 x3 xo4).1)

/-! ## The accumulation, point by point -/

/-- What the accumulator block holds after the body at position `n`: at a sample's first tile the first-tile case on the
    point's input blocks; at a later tile the later-tile case on the point's input blocks and on what position `n - 1` left. -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a sample's first tile. -/
theorem outsAt0_A (c : Dev nD) (t : Fin cfg0.N) (h0 : t.val % 64 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 64 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body each input's buffer at its block and the
    accumulator's at `outsAt0`; the invariant is the scoped buffers no window stages; nothing owed; the array the row
    and column score windows share held as its two halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Input window 0's current staging buffer holds its block at every point, fetched there or not: unfetched, the
    block index has not moved since the fetch. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's current staging buffer holds its block at every point, fetched there or not: unfetched, the
    block index has not moved since the fetch. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's current staging buffer holds its block at every point, fetched there or not: unfetched, the
    block index has not moved since the fetch. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's current staging buffer holds its block at every point, fetched there or not: unfetched, the
    block index has not moved since the fetch. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a later tile the accumulator's current staging buffer holds what the body left at the point before: the point is
    not the first, and the block was not written back in between (it is written back only after a sample's last tile). -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form says which case the point is in; at a
    later tile the accumulator holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 512 := lt_of_lt_of_eq t.isLt (show cfg0.N = 512 from N_0)
  by_cases h0 : t.val % 64 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The launch of the pairwise-margin program: @main as five segments — the eighteen host operations that normalise
  the scores and build the two masks, the pipelined region, and three stretches of host operations that turn the
  per-sample sums into the mean loss — run in order from any memory with zero counters.

  The region reads the normalised scores through TWO windows (row tile and column tile), so that one array enters
  the pipeline as two half shares and leaves it, unchanged, as the same two halves, which are put back together; the
  masks' arrays enter whole; the per-sample sums' array enters whole and leaves at what the write-backs made of it.
  Every other buffer bypasses the region.
-/
import proofs.«140618_j16037407883702_2_alg».proof.Proof.KBFrame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev UC : Finset (DevRef τ sig) := Pipeline.ucRefs τ sig

/-- What rides beside the buffers through every segment: the core owes nothing. -/
abbrev R (c : Dev nD) : sProp 𝕄 := iprop(∃ W, owes (c : Thread nD τ) (0 : CellTallies nD τ sig Unit) W)

/-! ## The buffers' contents between the segments -/

/-- When the region is entered. -/
abbrev Ve (c : Dev nD) : Valuation τ sig (Elt F) := StableHlo.after hostOps0 (V₀ m c)

/-- When the region is left: the per-sample sums' array at what the write-backs made of it, every other buffer as
    the region found it. -/
def V1 (c : Dev nD) : Valuation τ sig (Elt F) := fun b =>
  if h : Proc.devRef .tc main_v15 = b then
    cast (congrArg (fun b' : DevRef τ sig => b'.ty.Contents (Elt F)) h) ((dats m 0 c).arrAt 4 cfg0.N)
  else Ve m c b

theorem V1_out (c : Dev nD) : V1 m c (Proc.devRef .tc main_v15) = (dats m 0 c).arrAt 4 cfg0.N := by
  unfold V1; rw [dif_pos rfl]; rfl

theorem V1_of_ne (c : Dev nD) (b : Ref sig .tc) (hb : main_v15 ≠ b) : V1 m c (Proc.devRef .tc b) = Ve m c (Proc.devRef .tc b) := by
  unfold V1; rw [dif_neg]; intro e; exact hb (Proc.devRef_injective _ e)

-- From here on `V1` is known only through the two lemmas above.
attribute [irreducible] V1

abbrev V2 (c : Dev nD) : Valuation τ sig (Elt F) := StableHlo.after hostOps1 (V1 m c)
abbrev V3 (c : Dev nD) : Valuation τ sig (Elt F) := StableHlo.after hostOps1_1 (V2 m c)
abbrev V4 (c : Dev nD) : Valuation τ sig (Elt F) := StableHlo.after hostOps1_2 (V3 m c)

/-! ## The host segments -/

def seg0 : Pipeline.HostSeg (Name := ℕ) (U := UR sig nD τ) (pcfgs (F := F)) defs₀ 𝒱₀ L lv :=
  Pipeline.HostSeg.ofOps _ _ _ _ _ UC hostOps0 (fun op h => Pipeline.sub_ucRefs op ((List.forall_iff_forall_mem.mp hostOps0_sub) op h))
    (by intro _ h; (repeat (cases h with | head => rfl | tail _ h => ?_)); exact nomatch h) (V₀ m) R

def seg1 : Pipeline.HostSeg (Name := ℕ) (U := UR sig nD τ) (pcfgs (F := F)) defs₀ 𝒱₀ L lv :=
  Pipeline.HostSeg.ofOps _ _ _ _ _ UC hostOps1 (fun op h => Pipeline.sub_ucRefs op ((List.forall_iff_forall_mem.mp hostOps1_sub) op h))
    (by intro _ h; (repeat (cases h with | head => rfl | tail _ h => ?_)); exact nomatch h) (V1 m) R

def seg2 : Pipeline.HostSeg (Name := ℕ) (U := UR sig nD τ) (pcfgs (F := F)) defs₀ 𝒱₀ L lv :=
  Pipeline.HostSeg.ofOps _ _ _ _ _ UC hostOps1_1 (fun op h => Pipeline.sub_ucRefs op ((List.forall_iff_forall_mem.mp hostOps1_1_sub) op h))
    (by intro _ h; (repeat (cases h with | head => rfl | tail _ h => ?_)); exact nomatch h) (V2 m) R

def seg3 : Pipeline.HostSeg (Name := ℕ) (U := UR sig nD τ) (pcfgs (F := F)) defs₀ 𝒱₀ L lv :=
  Pipeline.HostSeg.ofOps _ _ _ _ _ UC hostOps1_2 (fun op h => Pipeline.sub_ucRefs op ((List.forall_iff_forall_mem.mp hostOps1_2_sub) op h))
    (by intro _ h; (repeat (cases h with | head => rfl | tail _ h => ?_)); exact nomatch h) (V3 m) R

/-! ## The region's two ends -/

/-- The distinct arrays behind the five windows: four, the row and column score windows being on one. -/
theorem arrImage_eq : (Finset.univ.image (Pipeline.arrRef spec0) : Finset (Ref sig .tc)) = {main_v12, main_v13, main_v14, main_v15} := by decide

/-- One buffer held whole is its two halves, beside three others. -/
theorem share_split4 {ℓa ℓb ℓc ℓd : Loc nD τ sig} (xa : Buf (Elt F) ℓa) (xb : Buf (Elt F) ℓb) (xc : Buf (Elt F) ℓc) (xd : Buf (Elt F) ℓd) :
    (iprop((ℓa ↦{fullShare} xa) ∗ (ℓb ↦{fullShare} xb) ∗ (ℓc ↦{fullShare} xc) ∗ (ℓd ↦{fullShare} xd)) : sProp 𝕄)
      ⊢ iprop((ℓa ↦{fullShare.left} xa) ∗ (ℓa ↦{fullShare.right} xa) ∗ (ℓb ↦{fullShare} xb) ∗ (ℓc ↦{fullShare} xc) ∗ (ℓd ↦{fullShare} xd)) := by
  iintro ⟨Ha, Hb, Hc, Hd⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  isplitl [Hc]; · iexact Hc
  iexact Hd

/-- And back: two halves at the same contents are the buffer held whole. -/
theorem share_join4 {ℓa ℓb ℓc ℓd : Loc nD τ sig} (xa : Buf (Elt F) ℓa) (xb : Buf (Elt F) ℓb) (xc : Buf (Elt F) ℓc) (xd : Buf (Elt F) ℓd) :
    (iprop((ℓa ↦{fullShare.left} xa) ∗ (ℓa ↦{fullShare.right} xa) ∗ (ℓb ↦{fullShare} xb) ∗ (ℓc ↦{fullShare} xc) ∗ (ℓd ↦{fullShare} xd)) : sProp 𝕄)
      ⊢ iprop((ℓa ↦{fullShare} xa) ∗ (ℓb ↦{fullShare} xb) ∗ (ℓc ↦{fullShare} xc) ∗ (ℓd ↦{fullShare} xd)) := by
  iintro ⟨Hl, Hr, Hb, Hc, Hd⟩
  ihave Ha := (pointsTo_share (PosShare.mem_left_op_right fullShare)).2 $$ [Hl Hr]
  · isplitl [Hl]; · iexact Hl
    iexact Hr
  isplitl [Ha]; · iexact Ha
  isplitl [Hb]; · iexact Hb
  isplitl [Hc]; · iexact Hc
  iexact Hd

/-- ENTRY: the four buffers behind the windows, as the host operations left them, are the pipeline's arrays at their
    entry contents — the normalised scores' array as two halves. -/
theorem entry_arrays (c : Dev nD) :
    (Pipeline.arrBufs spec0 c (V m c) : sProp 𝕄) ⊢ (dats m 0 c).arrays ((dats m 0 c).arrAt · 0) := by
  unfold Pipeline.arrBufs Pipeline.Dat.arrays
  rw [bigSep_W0, arrImage_eq, BI.bigSep_insert (by decide), BI.bigSep_insert (by decide), BI.bigSep_insert (by decide), BI.bigSep_singleton]
  rw [show (dats m 0 c).share 0 = fullShare.left from rfl, show (dats m 0 c).share 1 = fullShare.right from rfl,
    show (dats m 0 c).share 2 = fullShare from rfl, show (dats m 0 c).share 3 = fullShare from rfl, show (dats m 0 c).share 4 = fullShare from rfl]
  rw [(arr_whole0 0).set_eq_univ, (arr_whole0 2).set_eq_univ, (arr_whole0 3).set_eq_univ, (arr_whole0 4).set_eq_univ]
  exact share_split4 (ℓa := (c : Thread nD τ).loc main_v12) (ℓb := (c : Thread nD τ).loc main_v13) (ℓc := (c : Thread nD τ).loc main_v14) (ℓd := (c : Thread nD τ).loc main_v15)
    (V m c main_v12) (V m c main_v13) (V m c main_v14) (V m c main_v15)

theorem entry_split (c : Dev nD) :
    (StableHlo.held (c : Thread nD τ) UC (Ve m c) : sProp 𝕄)
      ⊢ iprop((dats m 0 c).arrays ((dats m 0 c).arrAt · 0) ∗ Pipeline.unscopedRest spec0 c (V m c)) := by
  rw [show StableHlo.held (c : Thread nD τ) UC (Ve m c) = unscopedBufs c (V m c) from (Pipeline.unscopedBufs_held c _).symm,
    Pipeline.unscopedBufs_split₀ cfgs 0 winFacts₀0.arr_unscoped c (V m c)]
  iintro ⟨Ha, Hr⟩
  isplitl [Ha]
  · iapply (entry_arrays m c); iexact Ha
  iexact Hr

/-- The four buffers behind the windows' arrays, each whole, at given contents. -/
def four (c : Dev nD) (x12 : Buf (Elt F) ((c : Thread nD τ).loc main_v12)) (x13 : Buf (Elt F) ((c : Thread nD τ).loc main_v13))
    (x14 : Buf (Elt F) ((c : Thread nD τ).loc main_v14)) (x15 : Buf (Elt F) ((c : Thread nD τ).loc main_v15)) : sProp 𝕄 :=
  iprop((((c : Thread nD τ).loc main_v12) ↦{fullShare} x12) ∗ (((c : Thread nD τ).loc main_v13) ↦{fullShare} x13)
    ∗ (((c : Thread nD τ).loc main_v14) ↦{fullShare} x14) ∗ (((c : Thread nD τ).loc main_v15) ↦{fullShare} x15))

theorem arrBufs_eq (c : Dev nD) (W : (b : Ref sig .tc) → Buf (Elt F) ((c : Thread nD τ).loc b)) :
    (Pipeline.arrBufs spec0 c W : sProp 𝕄) = four c (W main_v12) (W main_v13) (W main_v14) (W main_v15) := by
  unfold Pipeline.arrBufs four
  rw [arrImage_eq, BI.bigSep_insert (by decide), BI.bigSep_insert (by decide), BI.bigSep_insert (by decide), BI.bigSep_singleton]
  rfl

/-- EXIT: the arrays at their final contents — the two halves of the scores' array hold the same, unchanged
    contents and make it whole again — are the four buffers, the input arrays as the region found them and the
    sums' array as the write-backs left it. -/
theorem arrays_final (c : Dev nD) :
    (dats m 0 c).arrays ((dats m 0 c).arrAt · cfg0.N)
      ⊢ four c (V m c main_v12) (V m c main_v13) (V m c main_v14) ((dats m 0 c).arrAt 4 cfg0.N) := by
  unfold Pipeline.Dat.arrays four
  rw [bigSep_W0]
  rw [show (dats m 0 c).share 0 = fullShare.left from rfl, show (dats m 0 c).share 1 = fullShare.right from rfl,
    show (dats m 0 c).share 2 = fullShare from rfl, show (dats m 0 c).share 3 = fullShare from rfl, show (dats m 0 c).share 4 = fullShare from rfl]
  rw [(arr_whole0 0).set_eq_univ, (arr_whole0 2).set_eq_univ, (arr_whole0 3).set_eq_univ, (arr_whole0 4).set_eq_univ]
  dsimp only
  rw [(dats m 0 c).arrAt_in 0 rfl, (dats m 0 c).arrAt_in 1 rfl, (dats m 0 c).arrAt_in 2 rfl, (dats m 0 c).arrAt_in 3 rfl]
  rw [A_eq, A_eq, A_eq, A_eq]
  exact share_join4 (ℓa := (c : Thread nD τ).loc main_v12) (ℓb := (c : Thread nD τ).loc main_v13) (ℓc := (c : Thread nD τ).loc main_v14) (ℓd := (c : Thread nD τ).loc main_v15)
    (V m c main_v12) (V m c main_v13) (V m c main_v14) ((dats m 0 c).arrAt 4 cfg0.N)

theorem exit_arrays (c : Dev nD) :
    (dats m 0 c).arrays ((dats m 0 c).arrAt · cfg0.N) ⊢ (Pipeline.arrBufs spec0 c (fun b => V1 m c b) : sProp 𝕄) := by
  rw [arrBufs_eq]
  dsimp only
  rw [V1_of_ne m c main_v12 (by decide), V1_of_ne m c main_v13 (by decide), V1_of_ne m c main_v14 (by decide), V1_out m c]
  exact arrays_final m c

/-- The buffers that are no window's array are where the region found them. -/
theorem exit_rest (c : Dev nD) :
    (Pipeline.unscopedRest spec0 c (V m c) : sProp 𝕄) ⊢ Pipeline.unscopedRest spec0 c (fun b => V1 m c b) := by
  unfold Pipeline.unscopedRest
  refine Entails.of_eq (bigSep_congr fun b hb => ?_)
  dsimp only
  rw [V1_of_ne m c b (fun e => (Finset.mem_sdiff.mp hb).2 (e ▸ Finset.mem_image.mpr ⟨4, Finset.mem_univ _, rfl⟩))]

theorem exit_join (c : Dev nD) :
    iprop((dats m 0 c).arrays ((dats m 0 c).arrAt · cfg0.N) ∗ Pipeline.unscopedRest spec0 c (V m c))
      ⊢ (StableHlo.held (c : Thread nD τ) UC (V1 m c) : sProp 𝕄) := by
  rw [show StableHlo.held (c : Thread nD τ) UC (V1 m c) = unscopedBufs c (fun b => V1 m c b) from (Pipeline.unscopedBufs_held c _).symm,
    Pipeline.unscopedBufs_split₀ cfgs 0 winFacts₀0.arr_unscoped c (fun b => V1 m c b)]
  iintro ⟨Ha, Hr⟩
  isplitl [Ha]
  · iapply (exit_arrays m c); iexact Ha
  iapply (exit_rest m c); iexact Hr

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) UC (Ve m c) ∗ R c)
  post c := iprop(StableHlo.held (c : Thread nD τ) UC (V1 m c) ∗ R c)
  X c := iprop(emp)
  Y c := iprop(emp)
  Z c := Pipeline.unscopedRest spec0 c (V m c)
  hentry c := by
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave H := (exit_join m c) $$ [Ha HZ]
    · isplitl [Ha] <;> iassumption
    imodintro
    isplitl [H]; · iexact H
    unfold Pipeline.Dat.owesAt Pipeline.owesWithin
    icases HO with ⟨%W, -, HO⟩; iexists W; iexact HO

/-- @main as the list of the five. -/
abbrev segs : List (Pipeline.Seg (pcfgs (F := F)) adm (dats m) () defs₀ 𝒱₀ L lv) :=
  [.host (seg0 m), .region (reg0 m), .host (seg1 m), .host (seg2 m), .host (seg3 m)]

/-- The launch element: the pipeline library's at the staging cells. -/
def u₀ : UR sig nD τ := initOf (Pipeline.cells cfgs cellOf_inj) (Pipeline.launchToks cfgs cellOf_inj)

set_option backward.isDefEq.respectTransparency.types false in
/-- From any memory with zero counters every weakly fair execution of @main terminates, and in every final state each
    unscoped buffer holds what the five segments, composed, compute of the launch contents. -/
theorem run_main : θ_run defs (onTc (τ := τ) (main (F := F))) ⟨m, fun _ => 0, ρ⟩
    (fun r => ∀ c : Dev nD, ∀ b ∈ UC, r.2.mem ((c : Thread nD τ).1, b) = V4 m c b) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) UC (V₀ m c) ∗ R c)) (Tₙ := fun c => StableHlo.held (c : Thread nD τ) UC (V4 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) UC (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ UC, s.mem ((c : Thread nD τ).1, b) = V4 m c b)
    (hfin := fun c s' => by
      iintro ⟨Hh, HSI⟩
      unfold StableHlo.held
      ihave Hr := (pointsTo_read_all UC (fun b => ((c : Thread nD τ).1, b)) (V4 m c) s') $$ [Hh HSI]
      · isplitl [Hh] <;> iassumption
      icases Hr with ⟨%ha, HSI⟩
      imodintro
      isplitr; · ipureintro; exact ha
      iexact HSI)
    (hQ := fun _ h => h)

end Cert.Kernel.Hand

end
-- ==== Proof.KBKeep.lean ====
/-
  The host operations of the program never write an argument array: before the region they only read the two
  arguments, after it they read the accumulator array and the two indicators, and the region's write-backs go to
  the accumulator array alone. So both argument arrays are, after the last host operation, what the core found
  at launch — for any float values.
-/
import proofs.«140618_j16037407883702_2_alg».proof.Proof.KBLaunch

set_option maxRecDepth 16384

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The operations before the region leave the first argument array as it was … -/
theorem Ve_arg0 : Ve m c (Proc.devRef .tc main_arg0) = m ((c.tc : Thread nD τ).loc main_arg0) := by
  dsimp only [Ve, V₀, hostOps0]
  after_results_simp <;> rfl

/-- … and the second. -/
theorem Ve_arg1 : Ve m c (Proc.devRef .tc main_arg1) = m ((c.tc : Thread nD τ).loc main_arg1) := by
  dsimp only [Ve, V₀, hostOps0]
  after_results_simp <;> rfl

/-- The operations after the region, over any contents W of the buffers, write neither argument array. -/
theorem tail_keeps (W : Valuation τ sig (Elt F)) (r : Ref sig .tc) (h0 : r = main_arg0 ∨ r = main_arg1) :
    StableHlo.after hostOps1_2 (StableHlo.after hostOps1_1 (StableHlo.after hostOps1 W)) (Proc.devRef .tc r) = W (Proc.devRef .tc r) := by
  rcases h0 with rfl | rfl <;> after_results_simp <;> rfl

/-- The first argument array ends as it was … -/
theorem V4_arg0 : V4 m c (Proc.devRef .tc main_arg0) = m ((c.tc : Thread nD τ).loc main_arg0) := by
  refine (tail_keeps (V1 m c) main_arg0 (Or.inl rfl)).trans ?_
  rw [V1_of_ne m c main_arg0 (by decide)]
  exact Ve_arg0 m c

/-- … and the second. -/
theorem V4_arg1 : V4 m c (Proc.devRef .tc main_arg1) = m ((c.tc : Thread nD τ).loc main_arg1) := by
  refine (tail_keeps (V1 m c) main_arg1 (Or.inr rfl)).trans ?_
  rw [V1_of_ne m c main_arg1 (by decide)]
  exact Ve_arg1 m c

end Cert.Kernel.Hand

end
-- ==== Proof.KIBase.lean ====
/-
  The pairwise-margin kernel's region, seen from one core: the arrays as the region finds them, each window's
  block at a grid point, and the one branch of the body — "first (i, j) tile of this sample", which zeroes the
  accumulator — decided over the 8 x 8 x 8 grid in closed form (point t is the tile (i, j) = (t / 8 % 8, t % 8) of
  sample t / 64, so the branch is taken exactly when t is a multiple of 64).
-/
import proofs.«140618_j16037407883702_2_alg».proof.Proof.Gen.KernelIdeal.Launch
import proofs.«140618_j16037407883702_2_alg».proof.Proof.Gen.KernelIdeal.Skeleton
import proofs.«140618_j16037407883702_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation of the host operations; -/
abbrev V₀ (c : Dev nD) : Valuation τ sig (Elt F) := fun b => m ((c : Dev nD), b)
/-- and when the region is entered: the eighteen host operations before it have run (the normalised scores
    and the two masks are in place). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- "This is the first tile of the sample": both inner grid coordinates are zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

abbrev VO0_4 : View sig .tc .vmem S1x1x128 .f32 := (Memref.whole cc0_stg4_0 : Memref sig .tc .vmem S1x1x128 .f32).view
abbrev ms0_0 (t : Fin cfg0.N) : Memref sig .tc .vmem S1x1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIRunA.lean ====
/-
  The body of the pairwise-margin kernel run once, on any whole staging memrefs, at a grid point where the
  "first tile of the sample" branch is TAKEN: the accumulator block is first overwritten with zeros, then the tile's masked sum is added to it.
  The four input blocks are read and left as they were; what the accumulator block ends with is recorded as the list
  of pieces the stores wrote.
-/
import proofs.«140618_j16037407883702_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's staging memref (last first), with the proof that from the
    four input memrefs at their contents and the accumulator's at anything the body runs to any continuation
    that holds the inputs as they were and the accumulator with those pieces written. -/
noncomputable def kernelRun0_A (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) :
    { L4 : List (View.Piece (Elt F) S1x1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KIRunB.lean ====
/-
  The body of the pairwise-margin kernel run once, on any whole staging memrefs, at a grid point where the
  "first tile of the sample" branch is NOT taken: the tile's masked sum is added to what the accumulator block already holds.
  The four input blocks are read and left as they were; what the accumulator block ends with is recorded as the list
  of pieces the stores wrote.
-/
import proofs.«140618_j16037407883702_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's staging memref (last first), with the proof that from the
    four input memrefs at their contents and the accumulator's at its running contents the body runs to any continuation
    that holds the inputs as they were and the accumulator with those pieces written. -/
noncomputable def kernelRun0_B (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) :
    { L4 : List (View.Piece (Elt F) S1x1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KIFrame.lean ====
/-
  What the accumulator block holds after each grid point, the proof data of the pipelined region, and the body
  obligation at a generic point.

  Point t is tile (i, j) of sample b = t / 64. At the sample's first tile (t a multiple of 64) the body zeroes the
  accumulator block and adds the tile's masked sum; at each of the 63 later tiles it adds the tile's masked sum to what
  the point before left — the block is not written back in between, only after the sample's last tile (t ≡ 63 mod 64).
  The four input windows are only read: after the body each staging buffer still holds its block of the array. Two of
  them (the row scores and the column scores) are blocks of ONE array, so that array is held as two half shares.
-/
import proofs.«140618_j16037407883702_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator block -/

/-- The first-tile case's pieces tile the accumulator block, so they cover it. -/
theorem cover0_A_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) (y : S1x1x128.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x1x128.size (by sl_kernel_rfl) y

/-- What the first-tile case leaves in the accumulator block: its pieces read back. -/
def out0_A_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) : Vec F S1x1x128 .f32 :=
  VO0_4.read (Elt F) (VO0_4.writes (Elt F) VO0_4.junk (kernelRun0_A c i arg3 harg3 arg4 harg4 arg5 harg5 arg6 harg6 arg7 harg7 hc0 x0 x1 x2 x3).1)

/-- The later-tile case's pieces tile the accumulator block, so they cover it. -/
theorem cover0_B_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) (y : S1x1x128.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x1x128.size (by sl_kernel_rfl) y

/-- What the later-tile case leaves in the accumulator block: its pieces read back. -/
def out0_B_4 (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo4 : Vec F S1x1x128 .f32) : Vec F S1x1x128 .f32 :=
  VO0_4.read (Elt F) (VO0_4.writes (Elt F) VO0_4.junk (kernelRun0_B c i arg3 harg3 arg4 harg4 arg5 harg5 arg6 harg6 arg7 harg7 hc0 x0 x1 x2 x3 xo4).1)

/-! ## The accumulation, point by point -/

/-- What the accumulator block holds after the body at position `n`: at a sample's first tile the first-tile case on the
    point's input blocks; at a later tile the later-tile case on the point's input blocks and on what position `n - 1` left. -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a sample's first tile. -/
theorem outsAt0_A (c : Dev nD) (t : Fin cfg0.N) (h0 : t.val % 64 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 64 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body each input's buffer at its block and the
    accumulator's at `outsAt0`; the invariant is the scoped buffers no window stages; nothing owed; the array the row
    and column score windows share held as its two halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Input window 0's current staging buffer holds its block at every point, fetched there or not: unfetched, the
    block index has not moved since the fetch. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's current staging buffer holds its block at every point, fetched there or not: unfetched, the
    block index has not moved since the fetch. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's current staging buffer holds its block at every point, fetched there or not: unfetched, the
    block index has not moved since the fetch. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's current staging buffer holds its block at every point, fetched there or not: unfetched, the
    block index has not moved since the fetch. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a later tile the accumulator's current staging buffer holds what the body left at the point before: the point is
    not the first, and the block was not written back in between (it is written back only after a sample's last tile). -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form says which case the point is in; at a
    later tile the accumulator holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 512 := lt_of_lt_of_eq t.isLt (show cfg0.N = 512 from N_0)
  by_cases h0 : t.val % 64 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch of the pairwise-margin program: @main as five segments — the eighteen host operations that normalise
  the scores and build the two masks, the pipelined region, and three stretches of host operations that turn the
  per-sample sums into the mean loss — run in order from any memory with zero counters.

  The region reads the normalised scores through TWO windows (row tile and column tile), so that one array enters
  the pipeline as two half shares and leaves it, unchanged, as the same two halves, which are put back together; the
  masks' arrays enter whole; the per-sample sums' array enters whole and leaves at what the write-backs made of it.
  Every other buffer bypasses the region.
-/
import proofs.«140618_j16037407883702_2_alg».proof.Proof.KIFrame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev UC : Finset (DevRef τ sig) := Pipeline.ucRefs τ sig

/-- What rides beside the buffers through every segment: the core owes nothing. -/
abbrev R (c : Dev nD) : sProp 𝕄 := iprop(∃ W, owes (c : Thread nD τ) (0 : CellTallies nD τ sig Unit) W)

/-! ## The buffers' contents between the segments -/

/-- When the region is entered. -/
abbrev Ve (c : Dev nD) : Valuation τ sig (Elt F) := StableHlo.after hostOps0 (V₀ m c)

/-- When the region is left: the per-sample sums' array at what the write-backs made of it, every other buffer as
    the region found it. -/
def V1 (c : Dev nD) : Valuation τ sig (Elt F) := fun b =>
  if h : Proc.devRef .tc main_v15 = b then
    cast (congrArg (fun b' : DevRef τ sig => b'.ty.Contents (Elt F)) h) ((dats m 0 c).arrAt 4 cfg0.N)
  else Ve m c b

theorem V1_out (c : Dev nD) : V1 m c (Proc.devRef .tc main_v15) = (dats m 0 c).arrAt 4 cfg0.N := by
  unfold V1; rw [dif_pos rfl]; rfl

theorem V1_of_ne (c : Dev nD) (b : Ref sig .tc) (hb : main_v15 ≠ b) : V1 m c (Proc.devRef .tc b) = Ve m c (Proc.devRef .tc b) := by
  unfold V1; rw [dif_neg]; intro e; exact hb (Proc.devRef_injective _ e)

-- From here on `V1` is known only through the two lemmas above.
attribute [irreducible] V1

abbrev V2 (c : Dev nD) : Valuation τ sig (Elt F) := StableHlo.after hostOps1 (V1 m c)
abbrev V3 (c : Dev nD) : Valuation τ sig (Elt F) := StableHlo.after hostOps1_1 (V2 m c)
abbrev V4 (c : Dev nD) : Valuation τ sig (Elt F) := StableHlo.after hostOps1_2 (V3 m c)

/-! ## The host segments -/

def seg0 : Pipeline.HostSeg (Name := ℕ) (U := UR sig nD τ) (pcfgs (F := F)) defs₀ 𝒱₀ L lv :=
  Pipeline.HostSeg.ofOps _ _ _ _ _ UC hostOps0 (fun op h => Pipeline.sub_ucRefs op ((List.forall_iff_forall_mem.mp hostOps0_sub) op h))
    (by intro _ h; (repeat (cases h with | head => rfl | tail _ h => ?_)); exact nomatch h) (V₀ m) R

def seg1 : Pipeline.HostSeg (Name := ℕ) (U := UR sig nD τ) (pcfgs (F := F)) defs₀ 𝒱₀ L lv :=
  Pipeline.HostSeg.ofOps _ _ _ _ _ UC hostOps1 (fun op h => Pipeline.sub_ucRefs op ((List.forall_iff_forall_mem.mp hostOps1_sub) op h))
    (by intro _ h; (repeat (cases h with | head => rfl | tail _ h => ?_)); exact nomatch h) (V1 m) R

def seg2 : Pipeline.HostSeg (Name := ℕ) (U := UR sig nD τ) (pcfgs (F := F)) defs₀ 𝒱₀ L lv :=
  Pipeline.HostSeg.ofOps _ _ _ _ _ UC hostOps1_1 (fun op h => Pipeline.sub_ucRefs op ((List.forall_iff_forall_mem.mp hostOps1_1_sub) op h))
    (by intro _ h; (repeat (cases h with | head => rfl | tail _ h => ?_)); exact nomatch h) (V2 m) R

def seg3 : Pipeline.HostSeg (Name := ℕ) (U := UR sig nD τ) (pcfgs (F := F)) defs₀ 𝒱₀ L lv :=
  Pipeline.HostSeg.ofOps _ _ _ _ _ UC hostOps1_2 (fun op h => Pipeline.sub_ucRefs op ((List.forall_iff_forall_mem.mp hostOps1_2_sub) op h))
    (by intro _ h; (repeat (cases h with | head => rfl | tail _ h => ?_)); exact nomatch h) (V3 m) R

/-! ## The region's two ends -/

/-- The distinct arrays behind the five windows: four, the row and column score windows being on one. -/
theorem arrImage_eq : (Finset.univ.image (Pipeline.arrRef spec0) : Finset (Ref sig .tc)) = {main_v12, main_v13, main_v14, main_v15} := by decide

/-- One buffer held whole is its two halves, beside three others. -/
theorem share_split4 {ℓa ℓb ℓc ℓd : Loc nD τ sig} (xa : Buf (Elt F) ℓa) (xb : Buf (Elt F) ℓb) (xc : Buf (Elt F) ℓc) (xd : Buf (Elt F) ℓd) :
    (iprop((ℓa ↦{fullShare} xa) ∗ (ℓb ↦{fullShare} xb) ∗ (ℓc ↦{fullShare} xc) ∗ (ℓd ↦{fullShare} xd)) : sProp 𝕄)
      ⊢ iprop((ℓa ↦{fullShare.left} xa) ∗ (ℓa ↦{fullShare.right} xa) ∗ (ℓb ↦{fullShare} xb) ∗ (ℓc ↦{fullShare} xc) ∗ (ℓd ↦{fullShare} xd)) := by
  iintro ⟨Ha, Hb, Hc, Hd⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  isplitl [Hc]; · iexact Hc
  iexact Hd

/-- And back: two halves at the same contents are the buffer held whole. -/
theorem share_join4 {ℓa ℓb ℓc ℓd : Loc nD τ sig} (xa : Buf (Elt F) ℓa) (xb : Buf (Elt F) ℓb) (xc : Buf (Elt F) ℓc) (xd : Buf (Elt F) ℓd) :
    (iprop((ℓa ↦{fullShare.left} xa) ∗ (ℓa ↦{fullShare.right} xa) ∗ (ℓb ↦{fullShare} xb) ∗ (ℓc ↦{fullShare} xc) ∗ (ℓd ↦{fullShare} xd)) : sProp 𝕄)
      ⊢ iprop((ℓa ↦{fullShare} xa) ∗ (ℓb ↦{fullShare} xb) ∗ (ℓc ↦{fullShare} xc) ∗ (ℓd ↦{fullShare} xd)) := by
  iintro ⟨Hl, Hr, Hb, Hc, Hd⟩
  ihave Ha := (pointsTo_share (PosShare.mem_left_op_right fullShare)).2 $$ [Hl Hr]
  · isplitl [Hl]; · iexact Hl
    iexact Hr
  isplitl [Ha]; · iexact Ha
  isplitl [Hb]; · iexact Hb
  isplitl [Hc]; · iexact Hc
  iexact Hd

/-- ENTRY: the four buffers behind the windows, as the host operations left them, are the pipeline's arrays at their
    entry contents — the normalised scores' array as two halves. -/
theorem entry_arrays (c : Dev nD) :
    (Pipeline.arrBufs spec0 c (V m c) : sProp 𝕄) ⊢ (dats m 0 c).arrays ((dats m 0 c).arrAt · 0) := by
  unfold Pipeline.arrBufs Pipeline.Dat.arrays
  rw [bigSep_W0, arrImage_eq, BI.bigSep_insert (by decide), BI.bigSep_insert (by decide), BI.bigSep_insert (by decide), BI.bigSep_singleton]
  rw [show (dats m 0 c).share 0 = fullShare.left from rfl, show (dats m 0 c).share 1 = fullShare.right from rfl,
    show (dats m 0 c).share 2 = fullShare from rfl, show (dats m 0 c).share 3 = fullShare from rfl, show (dats m 0 c).share 4 = fullShare from rfl]
  rw [(arr_whole0 0).set_eq_univ, (arr_whole0 2).set_eq_univ, (arr_whole0 3).set_eq_univ, (arr_whole0 4).set_eq_univ]
  exact share_split4 (ℓa := (c : Thread nD τ).loc main_v12) (ℓb := (c : Thread nD τ).loc main_v13) (ℓc := (c : Thread nD τ).loc main_v14) (ℓd := (c : Thread nD τ).loc main_v15)
    (V m c main_v12) (V m c main_v13) (V m c main_v14) (V m c main_v15)

theorem entry_split (c : Dev nD) :
    (StableHlo.held (c : Thread nD τ) UC (Ve m c) : sProp 𝕄)
      ⊢ iprop((dats m 0 c).arrays ((dats m 0 c).arrAt · 0) ∗ Pipeline.unscopedRest spec0 c (V m c)) := by
  rw [show StableHlo.held (c : Thread nD τ) UC (Ve m c) = unscopedBufs c (V m c) from (Pipeline.unscopedBufs_held c _).symm,
    Pipeline.unscopedBufs_split₀ cfgs 0 winFacts₀0.arr_unscoped c (V m c)]
  iintro ⟨Ha, Hr⟩
  isplitl [Ha]
  · iapply (entry_arrays m c); iexact Ha
  iexact Hr

/-- The four buffers behind the windows' arrays, each whole, at given contents. -/
def four (c : Dev nD) (x12 : Buf (Elt F) ((c : Thread nD τ).loc main_v12)) (x13 : Buf (Elt F) ((c : Thread nD τ).loc main_v13))
    (x14 : Buf (Elt F) ((c : Thread nD τ).loc main_v14)) (x15 : Buf (Elt F) ((c : Thread nD τ).loc main_v15)) : sProp 𝕄 :=
  iprop((((c : Thread nD τ).loc main_v12) ↦{fullShare} x12) ∗ (((c : Thread nD τ).loc main_v13) ↦{fullShare} x13)
    ∗ (((c : Thread nD τ).loc main_v14) ↦{fullShare} x14) ∗ (((c : Thread nD τ).loc main_v15) ↦{fullShare} x15))

theorem arrBufs_eq (c : Dev nD) (W : (b : Ref sig .tc) → Buf (Elt F) ((c : Thread nD τ).loc b)) :
    (Pipeline.arrBufs spec0 c W : sProp 𝕄) = four c (W main_v12) (W main_v13) (W main_v14) (W main_v15) := by
  unfold Pipeline.arrBufs four
  rw [arrImage_eq, BI.bigSep_insert (by decide), BI.bigSep_insert (by decide), BI.bigSep_insert (by decide), BI.bigSep_singleton]
  rfl

/-- EXIT: the arrays at their final contents — the two halves of the scores' array hold the same, unchanged
    contents and make it whole again — are the four buffers, the input arrays as the region found them and the
    sums' array as the write-backs left it. -/
theorem arrays_final (c : Dev nD) :
    (dats m 0 c).arrays ((dats m 0 c).arrAt · cfg0.N)
      ⊢ four c (V m c main_v12) (V m c main_v13) (V m c main_v14) ((dats m 0 c).arrAt 4 cfg0.N) := by
  unfold Pipeline.Dat.arrays four
  rw [bigSep_W0]
  rw [show (dats m 0 c).share 0 = fullShare.left from rfl, show (dats m 0 c).share 1 = fullShare.right from rfl,
    show (dats m 0 c).share 2 = fullShare from rfl, show (dats m 0 c).share 3 = fullShare from rfl, show (dats m 0 c).share 4 = fullShare from rfl]
  rw [(arr_whole0 0).set_eq_univ, (arr_whole0 2).set_eq_univ, (arr_whole0 3).set_eq_univ, (arr_whole0 4).set_eq_univ]
  dsimp only
  rw [(dats m 0 c).arrAt_in 0 rfl, (dats m 0 c).arrAt_in 1 rfl, (dats m 0 c).arrAt_in 2 rfl, (dats m 0 c).arrAt_in 3 rfl]
  rw [A_eq, A_eq, A_eq, A_eq]
  exact share_join4 (ℓa := (c : Thread nD τ).loc main_v12) (ℓb := (c : Thread nD τ).loc main_v13) (ℓc := (c : Thread nD τ).loc main_v14) (ℓd := (c : Thread nD τ).loc main_v15)
    (V m c main_v12) (V m c main_v13) (V m c main_v14) ((dats m 0 c).arrAt 4 cfg0.N)

theorem exit_arrays (c : Dev nD) :
    (dats m 0 c).arrays ((dats m 0 c).arrAt · cfg0.N) ⊢ (Pipeline.arrBufs spec0 c (fun b => V1 m c b) : sProp 𝕄) := by
  rw [arrBufs_eq]
  dsimp only
  rw [V1_of_ne m c main_v12 (by decide), V1_of_ne m c main_v13 (by decide), V1_of_ne m c main_v14 (by decide), V1_out m c]
  exact arrays_final m c

/-- The buffers that are no window's array are where the region found them. -/
theorem exit_rest (c : Dev nD) :
    (Pipeline.unscopedRest spec0 c (V m c) : sProp 𝕄) ⊢ Pipeline.unscopedRest spec0 c (fun b => V1 m c b) := by
  unfold Pipeline.unscopedRest
  refine Entails.of_eq (bigSep_congr fun b hb => ?_)
  dsimp only
  rw [V1_of_ne m c b (fun e => (Finset.mem_sdiff.mp hb).2 (e ▸ Finset.mem_image.mpr ⟨4, Finset.mem_univ _, rfl⟩))]

theorem exit_join (c : Dev nD) :
    iprop((dats m 0 c).arrays ((dats m 0 c).arrAt · cfg0.N) ∗ Pipeline.unscopedRest spec0 c (V m c))
      ⊢ (StableHlo.held (c : Thread nD τ) UC (V1 m c) : sProp 𝕄) := by
  rw [show StableHlo.held (c : Thread nD τ) UC (V1 m c) = unscopedBufs c (fun b => V1 m c b) from (Pipeline.unscopedBufs_held c _).symm,
    Pipeline.unscopedBufs_split₀ cfgs 0 winFacts₀0.arr_unscoped c (fun b => V1 m c b)]
  iintro ⟨Ha, Hr⟩
  isplitl [Ha]
  · iapply (exit_arrays m c); iexact Ha
  iapply (exit_rest m c); iexact Hr

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) UC (Ve m c) ∗ R c)
  post c := iprop(StableHlo.held (c : Thread nD τ) UC (V1 m c) ∗ R c)
  X c := iprop(emp)
  Y c := iprop(emp)
  Z c := Pipeline.unscopedRest spec0 c (V m c)
  hentry c := by
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave H := (exit_join m c) $$ [Ha HZ]
    · isplitl [Ha] <;> iassumption
    imodintro
    isplitl [H]; · iexact H
    unfold Pipeline.Dat.owesAt Pipeline.owesWithin
    icases HO with ⟨%W, -, HO⟩; iexists W; iexact HO

/-- @main as the list of the five. -/
abbrev segs : List (Pipeline.Seg (pcfgs (F := F)) adm (dats m) () defs₀ 𝒱₀ L lv) :=
  [.host (seg0 m), .region (reg0 m), .host (seg1 m), .host (seg2 m), .host (seg3 m)]

/-- The launch element: the pipeline library's at the staging cells. -/
def u₀ : UR sig nD τ := initOf (Pipeline.cells cfgs cellOf_inj) (Pipeline.launchToks cfgs cellOf_inj)

set_option backward.isDefEq.respectTransparency.types false in
/-- From any memory with zero counters every weakly fair execution of @main terminates, and in every final state each
    unscoped buffer holds what the five segments, composed, compute of the launch contents. -/
theorem run_main : θ_run defs (onTc (τ := τ) (main (F := F))) ⟨m, fun _ => 0, ρ⟩
    (fun r => ∀ c : Dev nD, ∀ b ∈ UC, r.2.mem ((c : Thread nD τ).1, b) = V4 m c b) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) UC (V₀ m c) ∗ R c)) (Tₙ := fun c => StableHlo.held (c : Thread nD τ) UC (V4 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) UC (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ UC, s.mem ((c : Thread nD τ).1, b) = V4 m c b)
    (hfin := fun c s' => by
      iintro ⟨Hh, HSI⟩
      unfold StableHlo.held
      ihave Hr := (pointsTo_read_all UC (fun b => ((c : Thread nD τ).1, b)) (V4 m c) s') $$ [Hh HSI]
      · isplitl [Hh] <;> iassumption
      icases Hr with ⟨%ha, HSI⟩
      imodintro
      isplitr; · ipureintro; exact ha
      iexact HSI)
    (hQ := fun _ h => h)

end Cert.KernelIdeal.Hand

end
-- ==== Proof.KIKeep.lean ====
/-
  The host operations of the program never write an argument array: before the region they only read the two
  arguments, after it they read the accumulator array and the two indicators, and the region's write-backs go to
  the accumulator array alone. So both argument arrays are, after the last host operation, what the core found
  at launch — for any float values.
-/
import proofs.«140618_j16037407883702_2_alg».proof.Proof.KILaunch

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The operations before the region leave the first argument array as it was … -/
theorem Ve_arg0 : Ve m c (Proc.devRef .tc main_arg0) = m ((c.tc : Thread nD τ).loc main_arg0) := by
  dsimp only [Ve, V₀, hostOps0]
  after_results_simp <;> rfl

/-- … and the second. -/
theorem Ve_arg1 : Ve m c (Proc.devRef .tc main_arg1) = m ((c.tc : Thread nD τ).loc main_arg1) := by
  dsimp only [Ve, V₀, hostOps0]
  after_results_simp <;> rfl

/-- The operations after the region, over any contents W of the buffers, write neither argument array. -/
theorem tail_keeps (W : Valuation τ sig (Elt F)) (r : Ref sig .tc) (h0 : r = main_arg0 ∨ r = main_arg1) :
    StableHlo.after hostOps1_2 (StableHlo.after hostOps1_1 (StableHlo.after hostOps1 W)) (Proc.devRef .tc r) = W (Proc.devRef .tc r) := by
  rcases h0 with rfl | rfl <;> after_results_simp <;> rfl

/-- The first argument array ends as it was … -/
theorem V4_arg0 : V4 m c (Proc.devRef .tc main_arg0) = m ((c.tc : Thread nD τ).loc main_arg0) := by
  refine (tail_keeps (V1 m c) main_arg0 (Or.inl rfl)).trans ?_
  rw [V1_of_ne m c main_arg0 (by decide)]
  exact Ve_arg0 m c

/-- … and the second. -/
theorem V4_arg1 : V4 m c (Proc.devRef .tc main_arg1) = m ((c.tc : Thread nD τ).loc main_arg1) := by
  refine (tail_keeps (V1 m c) main_arg1 (Or.inr rfl)).trans ?_
  rw [V1_of_ne m c main_arg1 (by decide)]
  exact Ve_arg1 m c

end Cert.KernelIdeal.Hand

end
-- ==== Proof.RefSpec.lean ====
/-
  The specification both programs are compared against, stated over literal shapes at the ideal
  values (a float is an extended real).

  Write x for the first argument array and mk for the second, both of shape [8,64,64], read as
  [8,4096] rows. For each row b:
    xn[b,i]  = x[b,i] / max_k x[b,k]                        (the row scaled by its maximum)
    pos[b,i] = 1 if mk[b,i] > 1/2 else 0,   neg[b,i] = 1 if mk[b,i] < 1/2 else 0
    term b i j = max (1/2 - (xn[b,i] - xn[b,j])) 0 * (pos[b,i] * neg[b,j])
    per[b]   = sum over i and j of term b i j               (the pairwise hinge sum of the row)
  and the result is the mean over the 8 rows of per[b] / (npos[b] * nneg[b] + eps) where both
  counts npos[b] = sum_i pos[b,i], nneg[b] = sum_j neg[b,j] are positive, and of 0 elsewhere.
  The stages xr, mr, xn, pos, neg and tail are the printed host operations themselves; only the
  per-row sum differs between the two programs, so tail takes it as an argument.
-/
import Idealize.ShloMosaic.PureOps.Ideal
import Idealize.ShloMosaic.Lib.ValueIdx

noncomputable section

namespace Cert.Spec

open Idealize.ShloMosaic Idealize.ShloMosaic.ValueIdx

/-- An argument array [8,64,64] read as 8 rows of 4096. -/
def rows (x : FVec Ideal ⟨3, ![8, 64, 64]⟩ .f32) : FVec Ideal ⟨2, ![8, 4096]⟩ .f32 :=
  shapeCast ⟨2, ![8, 4096]⟩ x (by decide)

/-- The maximum of each row, from minus infinity. -/
def rowMax (x : FVec Ideal ⟨3, ![8, 64, 64]⟩ .f32) : FVec Ideal ⟨1, ![8]⟩ .f32 :=
  Host.reduce (axes := [1]) FloatOps.maximumf (rows x) (constant (F := Ideal) ⟨0, ![]⟩ .f32 0xFF800000#32)
    (by decide) (by decide)

/-- Each row divided by its maximum. -/
def xn (x : FVec Ideal ⟨3, ![8, 64, 64]⟩ .f32) : FVec Ideal ⟨2, ![8, 4096]⟩ .f32 :=
  Host.divf (rows x)
    (broadcastInDim ⟨2, ![8, 4096]⟩ ![0, 1] (by decide)
      (broadcastInDim ⟨2, ![8, 1]⟩ ![0] (by decide) (rowMax x)))

/-- The indicator of the mask above one half. -/
def pos (mk : FVec Ideal ⟨3, ![8, 64, 64]⟩ .f32) : FVec Ideal ⟨2, ![8, 4096]⟩ .f32 :=
  uitofp (F := Ideal) .f32
    (cmpf .ogt (rows mk)
      (broadcastInDim ⟨2, ![8, 4096]⟩ ![] (by decide) (constant (F := Ideal) ⟨0, ![]⟩ .f32 0x3F000000#32)))

/-- The indicator of the mask below one half. -/
def neg (mk : FVec Ideal ⟨3, ![8, 64, 64]⟩ .f32) : FVec Ideal ⟨2, ![8, 4096]⟩ .f32 :=
  uitofp (F := Ideal) .f32
    (cmpf .olt (rows mk)
      (broadcastInDim ⟨2, ![8, 4096]⟩ ![] (by decide) (constant (F := Ideal) ⟨0, ![]⟩ .f32 0x3F000000#32)))

/-- The summand of the pairwise hinge sum of row b at the pair (i, j): the margin one half minus the
    difference of the scaled scores, cut at zero, counted when i is a positive and j a negative. -/
def term (xn pos neg : FVec Ideal ⟨2, ![8, 4096]⟩ .f32) (b : Fin 8) (i j : Fin 4096) : EReal :=
  max (Ideal.ofBits .f32 0x3F000000#32 - (xn (ix2 b i) - xn (ix2 b j))) (Ideal.ofBits .f32 0x00000000#32)
    * (pos (ix2 b i) * neg (ix2 b j))

/-- The pairwise hinge sum of each row, as an array over the 8 rows. -/
def per (xn pos neg : FVec Ideal ⟨2, ![8, 4096]⟩ .f32) : FVec Ideal ⟨1, ![8]⟩ .f32 :=
  fun b => ∑ i : Fin 4096, ∑ j : Fin 4096, term xn pos neg (b 0) i j

/-- From the two indicators and the per-row sums to the result: each row's sum over the product of
    its two counts plus eps where both counts are positive, zero elsewhere, averaged over the rows. -/
def tail (pos neg : FVec Ideal ⟨2, ![8, 4096]⟩ .f32) (per : FVec Ideal ⟨1, ![8]⟩ .f32) :
    FVec Ideal ⟨0, ![]⟩ .f32 :=
  Host.divf (F := Ideal)
    (Host.reduceAdd (F := Ideal) (axes := [0])
      (select
        (andi
          (cmpf .ogt
            (Host.reduceAdd (F := Ideal) (axes := [1]) pos (constant (F := Ideal) ⟨0, ![]⟩ .f32 0x00000000#32)
              (by decide) (by decide) : FVec Ideal ⟨1, ![8]⟩ .f32)
            (broadcastInDim ⟨1, ![8]⟩ ![] (by decide) (constant (F := Ideal) ⟨0, ![]⟩ .f32 0x00000000#32)))
          (cmpf .ogt
            (Host.reduceAdd (F := Ideal) (axes := [1]) neg (constant (F := Ideal) ⟨0, ![]⟩ .f32 0x00000000#32)
              (by decide) (by decide) : FVec Ideal ⟨1, ![8]⟩ .f32)
            (broadcastInDim ⟨1, ![8]⟩ ![] (by decide) (constant (F := Ideal) ⟨0, ![]⟩ .f32 0x00000000#32))))
        (Host.divf (F := Ideal) per
          (addf
            (mulf
              (Host.reduceAdd (F := Ideal) (axes := [1]) pos (constant (F := Ideal) ⟨0, ![]⟩ .f32 0x00000000#32)
                (by decide) (by decide) : FVec Ideal ⟨1, ![8]⟩ .f32)
              (Host.reduceAdd (F := Ideal) (axes := [1]) neg (constant (F := Ideal) ⟨0, ![]⟩ .f32 0x00000000#32)
                (by decide) (by decide) : FVec Ideal ⟨1, ![8]⟩ .f32))
            (broadcastInDim ⟨1, ![8]⟩ ![] (by decide) (constant (F := Ideal) ⟨0, ![]⟩ .f32 0x322BCC77#32))))
        (broadcastInDim ⟨1, ![8]⟩ ![] (by decide) (id (constant (F := Ideal) ⟨0, ![]⟩ .f32 0x00000000#32))))
      (constant (F := Ideal) ⟨0, ![]⟩ .f32 0x00000000#32) (by decide) (by decide) : FVec Ideal ⟨0, ![]⟩ .f32)
    (constant (F := Ideal) ⟨0, ![]⟩ .f32 0x41000000#32)

end Cert.Spec

end
-- ==== Proof.KITail.lean ====
/-
  The kernel program's host operations before and after its region, read as the specification's stages.

  Before the region the program reshapes the two argument arrays to rows, scales each score row by its
  maximum and builds the two indicators of the mask (above and below one half), exactly as the
  specification does; the three arrays the region's windows read are these with a unit middle axis
  added. After the region it takes column 0 of the per-row accumulator array, and from it and the two
  indicators computes the specification's closing stages: each row's sum over the product of its two
  counts plus eps where both counts are positive, zero elsewhere, averaged over the rows.
-/
import proofs.«140618_j16037407883702_2_alg».proof.Proof.KIKeep
import proofs.«140618_j16037407883702_2_alg».proof.Proof.RefSpec
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The first argument array (the scores) as core c finds it at launch. -/
abbrev arg0 : FVec Ideal ⟨3, ![8, 64, 64]⟩ .f32 := m ((c.tc : Thread nD τ).loc main_arg0)
/-- The second argument array (the mask) as core c finds it at launch. -/
abbrev arg1 : FVec Ideal ⟨3, ![8, 64, 64]⟩ .f32 := m ((c.tc : Thread nD τ).loc main_arg1)

/-! ## Before the region -/

/-- The indicator of the mask above one half. -/
theorem Ve_v8 : (Ve m c (Proc.devRef .tc main_v8) : FVec Ideal S8x4096 .f32) = Cert.Spec.pos (arg1 m c) := by
  dsimp only [Ve, V₀, hostOps0]
  after_results
  rfl

/-- The indicator of the mask below one half. -/
theorem Ve_v11 : (Ve m c (Proc.devRef .tc main_v11) : FVec Ideal S8x4096 .f32) = Cert.Spec.neg (arg1 m c) := by
  dsimp only [Ve, V₀, hostOps0]
  after_results
  rfl

/-- The scaled scores, with a unit middle axis: what the row and column score windows read. -/
theorem Ve_v12 : (Ve m c (Proc.devRef .tc main_v12) : FVec Ideal S8x1x4096 .f32)
    = shapeCast S8x1x4096 (Cert.Spec.xn (arg0 m c)) shapeCasts_S8x4096_S8x1x4096 := by
  dsimp only [Ve, V₀, hostOps0]
  after_results
  rfl

/-- The indicator above one half, with a unit middle axis. -/
theorem Ve_v13 : (Ve m c (Proc.devRef .tc main_v13) : FVec Ideal S8x1x4096 .f32)
    = shapeCast S8x1x4096 (Cert.Spec.pos (arg1 m c)) shapeCasts_S8x4096_S8x1x4096 := by
  dsimp only [Ve, V₀, hostOps0]
  after_results
  rfl

/-- The indicator below one half, with a unit middle axis. -/
theorem Ve_v14 : (Ve m c (Proc.devRef .tc main_v14) : FVec Ideal S8x1x4096 .f32)
    = shapeCast S8x1x4096 (Cert.Spec.neg (arg1 m c)) shapeCasts_S8x4096_S8x1x4096 := by
  dsimp only [Ve, V₀, hostOps0]
  after_results
  rfl

/-! ## After the region -/

/-- The operations after the region, over any contents W of the buffers they read: the specification's closing stages
    of the two indicators' buffers and of column 0 of the accumulator array's buffer. -/
theorem tail_of (W : Valuation τ sig (Elt Ideal)) :
    (StableHlo.after hostOps1_2 (StableHlo.after hostOps1_1 (StableHlo.after hostOps1 W)) (Proc.devRef .tc main_v31) : FVec Ideal S_ .f32)
      = Cert.Spec.tail (W (Proc.devRef .tc main_v8)) (W (Proc.devRef .tc main_v11))
          (shapeCast S8 (extractStridedSlice S8x1x1 ![0, 0, 0] (W (Proc.devRef .tc main_v15)) slices_S8x1x128_S8x1x1_0_0_0)
            shapeCasts_S8x1x1_S8) := by
  after_results_simp <;> rfl

/-- The program's result: the closing stages applied to the two indicators and column 0 of the accumulator array as the
    region's write-backs left it. -/
theorem V4_v31 : (V4 m c (Proc.devRef .tc main_v31) : FVec Ideal S_ .f32)
    = Cert.Spec.tail (Cert.Spec.pos (arg1 m c)) (Cert.Spec.neg (arg1 m c))
        (shapeCast S8 (extractStridedSlice S8x1x1 ![0, 0, 0] ((dats m 0 c).arrAt 4 cfg0.N) slices_S8x1x128_S8x1x1_0_0_0)
          shapeCasts_S8x1x1_S8) := by
  refine (tail_of (V1 m c)).trans ?_
  rw [V1_out, V1_of_ne m c main_v8 (by decide), V1_of_ne m c main_v11 (by decide), Ve_v8, Ve_v11]

/-! ## Two layout operations read at an index -/

/-- Column 0 of an [8,1,128] array, as an [8] array, at row b is the array at (b, 0, 0). -/
theorem per_slice (A : FVec Ideal S8x1x128 .f32) (b : Fin 8) :
    shapeCast S8 (extractStridedSlice S8x1x1 ![0, 0, 0] A slices_S8x1x128_S8x1x1_0_0_0) shapeCasts_S8x1x1_S8 (ix1 b)
      = A (ix3 b (0 : Fin 1) (0 : Fin 128)) := by
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ A _ _ (ix3 b (0 : Fin 1) (0 : Fin 128)) ?_
    intro a
    match a with
    | ⟨0, _⟩ => exact (Nat.zero_add _).symm
    | ⟨1, _⟩ => rfl
    | ⟨2, _⟩ => rfl

/-- An [8,4096] array given a unit middle axis reads, at (b, 0, i), the array at (b, i). -/
theorem cast3_apply (X : FVec Ideal S8x4096 .f32) (b : Fin 8) (i : Fin 4096) :
    shapeCast S8x1x4096 X shapeCasts_S8x4096_S8x1x4096 (ix3 b (0 : Fin 1) i) = X (ix2 b i) :=
  shapeCast_apply X _ _ _ (by
    rw [Shape.rowMajor_val_three, Shape.rowMajor_val_two]
    show b.val * 4096 + i.val = (b.val * 1 + 0) * 4096 + i.val
    omega)

end Cert.KernelIdeal.Hand

end
-- ==== Proof.KIAcc.lean ====
/-
  What the accumulator block holds after each grid point, in closed form over the body's arithmetic.

  With S(t) the masked sum of tile t (one number, from the four input blocks at t), broadcast over the block's 128
  lanes: after a sample's first tile the block holds 0 + S(t); after each later tile it holds what the point before left,
  plus S(t). So after the k-th tile of a sample it holds the sum of the sample's first k + 1 tile sums.
-/
import proofs.«140618_j16037407883702_2_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- A later tile: the body leaves, in the accumulator block holding `xo`, `xo` plus the tile's masked sum — its one
    covering store's payload, whose loads read the whole buffers. -/
theorem out_B (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : ¬cond0_0 i)
    (x0 x1 x2 x3 : Vec F S1x1x512 .f32) (xo : Vec F S1x1x128 .f32) :
    out0_B_4 c i arg3 harg3 arg4 harg4 arg5 harg5 arg6 harg6 arg7 harg7 hc0 x0 x1 x2 x3 xo = k0_pay1 (k0_pay3 x0 x1 x2 x3) (k0_pay4 xo) := by
  unfold out0_B_4
  rw [View.read_writes_eq_canon _ _ _ (cover0_B_4 c i arg3 harg3 arg4 harg4 arg5 harg5 arg6 harg6 arg7 harg7 hc0 x0 x1 x2 x3 xo)]
  unfold kernelRun0_B
  dsimp only
  sl_unfold_words
  rw [View.canon_unit_zero hz3]
  simp only [View.readAt_eq_ld, harg3.read_unread, harg4.read_unread, harg5.read_unread, harg6.read_unread, harg7.read_unread,
    View.ld_unit_zero (S := S1x1x512) hz3, View.ld_unit_zero (S := S1x1x128) hz3]

/-- A sample's first tile: the body stores the zero block, reads it back, and leaves zero plus the tile's masked sum. -/
theorem out_A (c : Dev nD) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x128 .f32) (harg7 : arg7.IsWhole) (hc0 : cond0_0 i)
    (x0 x1 x2 x3 : Vec F S1x1x512 .f32) :
    out0_A_4 c i arg3 harg3 arg4 harg4 arg5 harg5 arg6 harg6 arg7 harg7 hc0 x0 x1 x2 x3 = k0_pay1 (k0_pay3 x0 x1 x2 x3) (k0_pay4 (k0_pay2 (F := F))) := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S1x1x128) hz3, View.readCov_unit_zero (S := S1x1x128) _ hz3]
  simp only [View.readAt_eq_ld, harg3.read_unread, harg4.read_unread, harg5.read_unread, harg6.read_unread,
    View.ld_unit_zero (S := S1x1x512) hz3, View.ld_unit_zero (S := S1x1x128) hz3]

/-- The tile's masked sum at point `t`, as the body computes it from the four input blocks there. -/
def tileSum (c : Dev nD) (t : Fin cfg0.N) : FVec F S1x1 .f32 :=
  k0_pay3 (iblk m c 0 t) (iblk m c 1 t) (iblk m c 2 t) (iblk m c 3 t)

/-- The running contents of the accumulator block after position `n`. -/
def acc (c : Dev nD) : (n : ℕ) → n < cfg0.N → Vec F S1x1x128 .f32
  | 0, h => k0_pay1 (tileSum m c ⟨0, h⟩) (k0_pay4 (k0_pay2 (F := F)))
  | n + 1, h =>
    if (n + 1) % 64 = 0 then k0_pay1 (tileSum m c ⟨n + 1, h⟩) (k0_pay4 (k0_pay2 (F := F)))
    else k0_pay1 (tileSum m c ⟨n + 1, h⟩) (k0_pay4 (acc c n (Nat.lt_of_succ_lt h)))

/-- What the proof data says the block holds after each point IS the running contents — by induction on the point. -/
theorem outsAt_eq (c : Dev nD) : ∀ (n : ℕ) (h : n < cfg0.N), outsAt0 m c n h = acc m c n h
  | 0, h => (outsAt0_A m c ⟨0, h⟩ rfl).trans (out_A ..)
  | n + 1, h => by
    by_cases h0 : (n + 1) % 64 = 0
    · rw [outsAt0_A m c ⟨n + 1, h⟩ h0, out_A]
      show _ = if (n + 1) % 64 = 0 then _ else _
      rw [if_pos h0]; rfl
    · rw [outsAt0_B m c ⟨n + 1, h⟩ h0, out_B]
      show k0_pay1 _ (k0_pay4 (outsAt0 m c n _)) = if (n + 1) % 64 = 0 then _ else _
      rw [if_neg h0, outsAt_eq c n]; rfl

end Cert.KernelIdeal.Hand

end
-- ==== Proof.KIFinal.lean ====
/-
  The per-sample sums' array when the region is left.

  The accumulator window's block at point t is block (t / 64, 0, 0) of the [8, 1, 128] array, and it is written back
  exactly once per sample, after the sample's last tile (t = 64 b + 63). So entry (b, 0, l) of the array ends at lane l
  of the running contents after point 64 b + 63, and every entry of the array is covered.
-/
import proofs.«140618_j16037407883702_2_alg».proof.Proof.KIAcc
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The accumulator window's block index at point `t`: the sample, and zero on the two unit-and-lane axes. -/
theorem idx_out : ∀ t : Fin cfg0.N, win0_4.index t (0 : Fin 3) = t.val / 64 ∧ win0_4.index t (1 : Fin 3) = 0 ∧ win0_4.index t (2 : Fin 3) = 0 :=
  (by decide +kernel : ∀ t : Fin grid0.N, win0_4.index t (0 : Fin 3) = t.val / 64 ∧ win0_4.index t (1 : Fin 3) = 0 ∧ win0_4.index t (2 : Fin 3) = 0)

theorem acc_congr (c : Dev nD) {n n' : ℕ} (e : n = n') (h : n < cfg0.N) (h' : n' < cfg0.N) : acc m c n h = acc m c n' h' := by
  subst e; rfl

/-- The lane of an entry of the per-sample array, as an index of the accumulator block. -/
abbrev lane (i : S8x1x128.Idx) : S1x1x128.Idx := ix3 (0 : Fin 1) (0 : Fin 1) (i 2 : Fin 128)

/-- The array the region leaves: entry (b, ·, l) is lane l of the running contents after the sample's last tile. -/
def finalSums (c : Dev nD) : Buf (Elt F) ((c : Thread nD τ).loc main_v15) := fun i =>
  acc m c (64 * (i 0).val + 63) (by have h8 : (i 0).val < 8 := (i 0).isLt; rw [show cfg0.N = 512 from N_0]; omega) (lane i)

/-- An index of the array is in point `t`'s block iff each coordinate is in the block's range on its axis. -/
theorem mem_blk (t : Fin cfg0.N) (i : S8x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v15).slice (win0_4.rect t)).set ↔ _
  rw [View.set_slice_whole, Rect.mem_set_unit]
  exact Iff.rfl

/-- What a write-back writes is its block of `finalSums`. -/
theorem flushed_eq (c : Dev nD) (t : Fin cfg0.N) (hf : (cfg0.win 4).flush t = true) :
    (dats m 0 c).flushed 4 t = ((cfg0.win 4).blk t).view.read (Elt F) (finalSums m c) := by
  have hN : t.val < 512 := lt_of_lt_of_eq t.isLt (show cfg0.N = 512 from N_0)
  have h63 : t.val % 64 = 63 := (flush0_4 t).mp hf
  obtain ⟨e0, e1, e2⟩ := idx_out t
  show (cfg0.win 4).cut (grid0.coords t) ((dats m 0 c).after 4 t) = _
  rw [after0_4, outsAt_eq]
  funext j
  show acc m c t.val t.isLt j = finalSums m c (((cfg0.win 4).blk t).view.emb j)
  have hj0 : (j 0).val < 1 := (j 0).isLt
  have hj1 : (j 1).val < 1 := (j 1).isLt
  have hj2 : (j 2).val < 128 := (j 2).isLt
  have hl : lane (((cfg0.win 4).blk t).view.emb j) = j := by
    funext a
    match a with
    | ⟨0, _⟩ => exact Fin.ext (by show 0 = (j 0).val; omega)
    | ⟨1, _⟩ => exact Fin.ext (by show 0 = (j 1).val; omega)
    | ⟨2, _⟩ => exact Fin.ext (by show win0_4.index t (2 : Fin 3) * 128 + 1 * (j 2).val = (j 2).val; rw [e2]; omega)
  unfold finalSums
  rw [hl]
  exact congrFun (acc_congr m c (by show t.val = 64 * (win0_4.index t (0 : Fin 3) * 1 + 1 * (j 0).val) + 63; rw [e0]; omega) _ _) j

/-- Every entry of the array is in the block of its sample's last tile. -/
theorem covered (c : Dev nD) (i : S8x1x128.Idx) :
    ∃ t : Fin cfg0.N, (cfg0.win 4).flush t = true ∧ i ∈ ((cfg0.win 4).blk t).view.set := by
  have h0 : (i 0).val < 8 := (i 0).isLt
  have h1 : (i 1).val < 1 := (i 1).isLt
  have h2 : (i 2).val < 128 := (i 2).isLt
  have hlt : 64 * (i 0).val + 63 < cfg0.N := by rw [show cfg0.N = 512 from N_0]; omega
  obtain ⟨e0, e1, e2⟩ := idx_out ⟨64 * (i 0).val + 63, hlt⟩
  refine ⟨⟨64 * (i 0).val + 63, hlt⟩, (flush0_4 _).mpr (by show (64 * (i 0).val + 63) % 64 = 63; omega), ?_⟩
  rw [mem_blk]
  intro a
  match a with
  | ⟨0, _⟩ => show win0_4.index ⟨64 * (i 0).val + 63, hlt⟩ (0 : Fin 3) * 1 ≤ (i 0).val ∧ (i 0).val < win0_4.index ⟨64 * (i 0).val + 63, hlt⟩ (0 : Fin 3) * 1 + 1
              rw [e0]; show (64 * (i 0).val + 63) / 64 * 1 ≤ (i 0).val ∧ (i 0).val < (64 * (i 0).val + 63) / 64 * 1 + 1; omega
  | ⟨1, _⟩ => show win0_4.index ⟨64 * (i 0).val + 63, hlt⟩ (1 : Fin 3) * 1 ≤ (i 1).val ∧ (i 1).val < win0_4.index ⟨64 * (i 0).val + 63, hlt⟩ (1 : Fin 3) * 1 + 1
              rw [e1]; omega
  | ⟨2, _⟩ => show win0_4.index ⟨64 * (i 0).val + 63, hlt⟩ (2 : Fin 3) * 128 ≤ (i 2).val ∧ (i 2).val < win0_4.index ⟨64 * (i 0).val + 63, hlt⟩ (2 : Fin 3) * 128 + 128
              rw [e2]; omega

/-- So the array ends holding `finalSums`. -/
theorem final_sums (c : Dev nD) : (dats m 0 c).arrAt 4 cfg0.N = finalSums m c :=
  (dats m 0 c).arrAt_eq_of_cover 4 (finalSums m c) (flushed_eq m c) (covered c)

end Cert.KernelIdeal.Hand

end
-- ==== Proof.KIBlocks.lean ====
/-
  The four input blocks at a grid point, entry by entry. Point t is tile (i, j) = (t / 8 % 8, t % 8) of sample b = t / 64:
  the row-score and row-mask windows stage entries 512 i .. 512 i + 511 of row b of their arrays, the column-score and
  column-mask windows entries 512 j .. 512 j + 511.
-/
import proofs.«140618_j16037407883702_2_alg».proof.Proof.KIFrame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The input windows' block indices at point `t`, decided over the grid. -/
theorem idx_in0 : ∀ t : Fin cfg0.N, win0_0.index t (0 : Fin 3) = t.val / 64 ∧ win0_0.index t (1 : Fin 3) = 0 ∧ win0_0.index t (2 : Fin 3) = t.val / 8 % 8 :=
  (by decide +kernel : ∀ t : Fin grid0.N, win0_0.index t (0 : Fin 3) = t.val / 64 ∧ win0_0.index t (1 : Fin 3) = 0 ∧ win0_0.index t (2 : Fin 3) = t.val / 8 % 8)
theorem idx_in1 : ∀ t : Fin cfg0.N, win0_1.index t (0 : Fin 3) = t.val / 64 ∧ win0_1.index t (1 : Fin 3) = 0 ∧ win0_1.index t (2 : Fin 3) = t.val % 8 :=
  (by decide +kernel : ∀ t : Fin grid0.N, win0_1.index t (0 : Fin 3) = t.val / 64 ∧ win0_1.index t (1 : Fin 3) = 0 ∧ win0_1.index t (2 : Fin 3) = t.val % 8)
theorem idx_in2 : ∀ t : Fin cfg0.N, win0_2.index t (0 : Fin 3) = t.val / 64 ∧ win0_2.index t (1 : Fin 3) = 0 ∧ win0_2.index t (2 : Fin 3) = t.val / 8 % 8 :=
  (by decide +kernel : ∀ t : Fin grid0.N, win0_2.index t (0 : Fin 3) = t.val / 64 ∧ win0_2.index t (1 : Fin 3) = 0 ∧ win0_2.index t (2 : Fin 3) = t.val / 8 % 8)
theorem idx_in3 : ∀ t : Fin cfg0.N, win0_3.index t (0 : Fin 3) = t.val / 64 ∧ win0_3.index t (1 : Fin 3) = 0 ∧ win0_3.index t (2 : Fin 3) = t.val % 8 :=
  (by decide +kernel : ∀ t : Fin grid0.N, win0_3.index t (0 : Fin 3) = t.val / 64 ∧ win0_3.index t (1 : Fin 3) = 0 ∧ win0_3.index t (2 : Fin 3) = t.val % 8)

/-- Window 0's block at point `t`, entry p: the row tile of sample t / 64. -/
theorem iblk0_apply (c : Dev nD) (t : Fin cfg0.N) (p : Fin 512) :
    (iblk m c 0 t : Vec F S1x1x512 .f32) (ix3 (0 : Fin 1) (0 : Fin 1) p)
      = V m c main_v12 (ix3 (⟨t.val / 64, by have h : t.val < 512 := lt_of_lt_of_eq t.isLt (show cfg0.N = 512 from N_0); omega⟩ : Fin 8) (0 : Fin 1)
          (⟨512 * (t.val / 8 % 8) + p.val, by have := p.isLt; omega⟩ : Fin 4096)) := by
  obtain ⟨e0, e1, e2⟩ := idx_in0 t
  unfold iblk
  rw [View.read_apply]
  show V m c main_v12 _ = V m c main_v12 _
  congr 1
  funext a
  apply Fin.ext
  match a with
  | ⟨0, _⟩ => show win0_0.index t (0 : Fin 3) * 1 + 1 * 0 = t.val / 64; rw [e0]; omega
  | ⟨1, _⟩ => show win0_0.index t (1 : Fin 3) * 1 + 1 * 0 = 0; rw [e1]
  | ⟨2, _⟩ => show win0_0.index t (2 : Fin 3) * 512 + 1 * p.val = 512 * (t.val / 8 % 8) + p.val; rw [e2]; omega

/-- Window 1's block at point `t`, entry q: the column tile of sample t / 64. -/
theorem iblk1_apply (c : Dev nD) (t : Fin cfg0.N) (p : Fin 512) :
    (iblk m c 1 t : Vec F S1x1x512 .f32) (ix3 (0 : Fin 1) (0 : Fin 1) p)
      = V m c main_v12 (ix3 (⟨t.val / 64, by have h : t.val < 512 := lt_of_lt_of_eq t.isLt (show cfg0.N = 512 from N_0); omega⟩ : Fin 8) (0 : Fin 1)
          (⟨512 * (t.val % 8) + p.val, by have := p.isLt; omega⟩ : Fin 4096)) := by
  obtain ⟨e0, e1, e2⟩ := idx_in1 t
  unfold iblk
  rw [View.read_apply]
  show V m c main_v12 _ = V m c main_v12 _
  congr 1
  funext a
  apply Fin.ext
  match a with
  | ⟨0, _⟩ => show win0_1.index t (0 : Fin 3) * 1 + 1 * 0 = t.val / 64; rw [e0]; omega
  | ⟨1, _⟩ => show win0_1.index t (1 : Fin 3) * 1 + 1 * 0 = 0; rw [e1]
  | ⟨2, _⟩ => show win0_1.index t (2 : Fin 3) * 512 + 1 * p.val = 512 * (t.val % 8) + p.val; rw [e2]; omega

/-- Window 2's block at point `t`, entry p: the row tile of sample t / 64. -/
theorem iblk2_apply (c : Dev nD) (t : Fin cfg0.N) (p : Fin 512) :
    (iblk m c 2 t : Vec F S1x1x512 .f32) (ix3 (0 : Fin 1) (0 : Fin 1) p)
      = V m c main_v13 (ix3 (⟨t.val / 64, by have h : t.val < 512 := lt_of_lt_of_eq t.isLt (show cfg0.N = 512 from N_0); omega⟩ : Fin 8) (0 : Fin 1)
          (⟨512 * (t.val / 8 % 8) + p.val, by have := p.isLt; omega⟩ : Fin 4096)) := by
  obtain ⟨e0, e1, e2⟩ := idx_in2 t
  unfold iblk
  rw [View.read_apply]
  show V m c main_v13 _ = V m c main_v13 _
  congr 1
  funext a
  apply Fin.ext
  match a with
  | ⟨0, _⟩ => show win0_2.index t (0 : Fin 3) * 1 + 1 * 0 = t.val / 64; rw [e0]; omega
  | ⟨1, _⟩ => show win0_2.index t (1 : Fin 3) * 1 + 1 * 0 = 0; rw [e1]
  | ⟨2, _⟩ => show win0_2.index t (2 : Fin 3) * 512 + 1 * p.val = 512 * (t.val / 8 % 8) + p.val; rw [e2]; omega

/-- Window 3's block at point `t`, entry q: the column tile of sample t / 64. -/
theorem iblk3_apply (c : Dev nD) (t : Fin cfg0.N) (p : Fin 512) :
    (iblk m c 3 t : Vec F S1x1x512 .f32) (ix3 (0 : Fin 1) (0 : Fin 1) p)
      = V m c main_v14 (ix3 (⟨t.val / 64, by have h : t.val < 512 := lt_of_lt_of_eq t.isLt (show cfg0.N = 512 from N_0); omega⟩ : Fin 8) (0 : Fin 1)
          (⟨512 * (t.val % 8) + p.val, by have := p.isLt; omega⟩ : Fin 4096)) := by
  obtain ⟨e0, e1, e2⟩ := idx_in3 t
  unfold iblk
  rw [View.read_apply]
  show V m c main_v14 _ = V m c main_v14 _
  congr 1
  funext a
  apply Fin.ext
  match a with
  | ⟨0, _⟩ => show win0_3.index t (0 : Fin 3) * 1 + 1 * 0 = t.val / 64; rw [e0]; omega
  | ⟨1, _⟩ => show win0_3.index t (1 : Fin 3) * 1 + 1 * 0 = 0; rw [e1]
  | ⟨2, _⟩ => show win0_3.index t (2 : Fin 3) * 512 + 1 * p.val = 512 * (t.val % 8) + p.val; rw [e2]; omega

end Cert.KernelIdeal.Hand

end
-- ==== Proof.KIPay.lean ====
import proofs.«140618_j16037407883702_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# The kernel body's arithmetic, read at an index (at the ideal values)

A float is an extended real.  The body takes four vectors of length 512 — row scores `a`, column
scores `b`, a row mask `u` and a column mask `v` — lays `a` and `u` down the rows and `b` and `v`
along the columns of a 512 × 512 square, forms at `(p, q)` the summand

  `max (1/2 - (a p - b q)) 0 * (u p * v q)`,

sums the square over its rows `p` and then over its columns `q`, and adds the total to every lane of
an accumulator of 128 lanes.  Here each of these payloads is read at an index: the tile's total is the
double sum of the summands (`pay3_apply`), the accumulation adds it lane by lane (`pay1_apply`), the
accumulator starts at zero (`pay2_apply`), and the cast of a shape to itself changes nothing
(`pay4_eq`).  The layout operations between a length-512 vector and the square are read at explicit
coordinates by one small lemma each.
-/

noncomputable section

namespace Cert.KernelIdeal.Hand

open Idealize.ShloMosaic Idealize.ShloMosaic.ValueIdx Cert.KernelIdeal Cert.KernelIdeal.Gen

/-- The summand at a pair: the margin one half minus the difference of the two scores, cut at zero,
    times the product of the two masks.  One half and zero are kept as the words the body prints. -/
def tterm (a b u v : EReal) : EReal :=
  max (Ideal.ofBits .f32 0x3F000000#32 - (a - b)) (Ideal.ofBits .f32 0x00000000#32) * (u * v)

/-! ## Layout operations at explicit coordinates -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element everywhere. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

end Layout

/-! ## The two sums at explicit coordinates -/

/-- The sum of an `[a, b]` array over its rows, read at column `q` (the zero word it starts from is the
    sum's neutral element and leaves no trace). -/
theorem reduce0_ab_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  refine Finset.sum_congr rfl fun p _ => congrArg src ?_
  funext c
  match c with
  | ⟨0, _⟩ => rfl
  | ⟨1, _⟩ => rfl

/-- The sum of a `[1, b]` array along its one row. -/
theorem reduce1_1b_apply {b : ℕ} (src : FVec Ideal ⟨2, ![1, b]⟩ .f32)
    (h : (⟨2, ![1, b]⟩ : Shape).Reduces [1] ⟨1, ![1]⟩) (hφ : FKind.Formats .f32)
    (hacc : (0x00000000#32 : BitVec 32) = FKind.add.neutral .f32 hφ) (u : Fin 1) :
    multiReduction .add [1] ⟨1, ![1]⟩ src 0x00000000#32 h hφ hacc (ix1 u) = ∑ q : Fin b, src (ix2 u q) := by
  refine (Ideal.multiReduction_add_single src 0x00000000#32 h hφ hacc (ix1 u)).trans ?_
  refine Finset.sum_congr rfl fun q _ => congrArg src ?_
  funext c
  match c with
  | ⟨0, _⟩ => rfl
  | ⟨1, _⟩ => rfl

/-! ## A length-512 vector laid down the rows, or along the columns, of the square -/

/-- A `[1, 1, 512]` vector made a column and broadcast over the square reads, at `(p, q)`, its entry `p`. -/
theorem col_apply (x : Vec Ideal S1x1x512 .f32) (h1 : S1x1x512.ShapeCasts S512) (h2 : S512.ShapeCasts S512x1)
    (h3 : S512x1.Broadcasts S512x512) (p q : Fin 512) :
    broadcastTo S512x512 (shapeCast S512x1 (shapeCast S512 x h1) h2) h3 (ix2 p q)
      = x (ix3 (0 : Fin 1) (0 : Fin 1) p) :=
  (broadcastTo_a1_ab_apply _ h3 p q).trans
    ((shapeCast_a_a1_apply _ h2 p (0 : Fin 1)).trans (shapeCast_11a_a_apply x h1 p))

/-- A `[1, 1, 512]` vector made a row and broadcast over the square reads, at `(p, q)`, its entry `q`. -/
theorem row_apply (x : Vec Ideal S1x1x512 .f32) (h1 : S1x1x512.ShapeCasts S512) (h2 : S512.ShapeCasts S1x512)
    (h3 : S1x512.Broadcasts S512x512) (p q : Fin 512) :
    broadcastTo S512x512 (shapeCast S1x512 (shapeCast S512 x h1) h2) h3 (ix2 p q)
      = x (ix3 (0 : Fin 1) (0 : Fin 1) q) :=
  (broadcastTo_1b_ab_apply _ h3 p q).trans
    ((shapeCast_a_1a_apply _ h2 (0 : Fin 1) q).trans (shapeCast_11a_a_apply x h1 q))

/-! ## The payloads at an index -/

/-- The tile's total: the sum over the columns `q` of the sums over the rows `p` of the summands. -/
theorem pay3_apply (x0 x1 x2 x3 : Vec Ideal S1x1x512 .f32) :
    k0_pay3 (F := Ideal) x0 x1 x2 x3 (ix2 (0 : Fin 1) (0 : Fin 1))
      = ∑ q : Fin 512, ∑ p : Fin 512,
          tterm (x0 (ix3 (0 : Fin 1) (0 : Fin 1) p)) (x1 (ix3 (0 : Fin 1) (0 : Fin 1) q))
            (x2 (ix3 (0 : Fin 1) (0 : Fin 1) p)) (x3 (ix3 (0 : Fin 1) (0 : Fin 1) q)) := by
  unfold k0_pay3
  refine (shapeCast_a_1a_apply _ _ (0 : Fin 1) (0 : Fin 1)).trans ?_
  refine (reduce1_1b_apply _ _ _ _ (0 : Fin 1)).trans ?_
  refine Finset.sum_congr rfl fun q _ => ?_
  refine (shapeCast_a_1a_apply _ _ (0 : Fin 1) q).trans ?_
  refine (reduce0_ab_apply _ _ _ _ q).trans ?_
  refine Finset.sum_congr rfl fun p _ => ?_
  exact congrArg₂ (· * ·)
    (congrArg₂ max
      (congrArg₂ (· - ·) rfl (congrArg₂ (· - ·) (col_apply x0 _ _ _ p q) (row_apply x1 _ _ _ p q))) rfl)
    (congrArg₂ (· * ·) (col_apply x2 _ _ _ p q) (row_apply x3 _ _ _ p q))

/-- The accumulation adds the tile's total to every lane. -/
theorem pay1_apply (v31 : FVec Ideal S1x1 .f32) (v33 : FVec Ideal S1x1x128 .f32) (y : S1x1x128.Idx) :
    k0_pay1 (F := Ideal) v31 v33 y = v33 y + v31 (ix2 (0 : Fin 1) (0 : Fin 1)) := by
  unfold k0_pay1
  exact congrArg (v33 y + ·)
    ((broadcastTo_111_11b_apply _ _ y).trans
      (shapeCast_ab_1ab_apply v31 _ (0 : Fin 1) (0 : Fin 1) (0 : Fin 1)))

/-- The accumulator starts at zero in every lane. -/
theorem pay2_apply (y : S1x1x128.Idx) : k0_pay2 (F := Ideal) y = 0 := by
  unfold k0_pay2
  exact Ideal.ofBits_zero_f32

/-- A cast of a shape to itself changes nothing. -/
theorem pay4_eq (v32 : Vec Ideal S1x1x128 .f32) : k0_pay4 (F := Ideal) v32 = v32 := by
  unfold k0_pay4
  exact shapeCast_self v32 _

end Cert.KernelIdeal.Hand
-- ==== Proof.KIAccSum.lean ====
import proofs.«140618_j16037407883702_2_alg».proof.Proof.KIAcc
import proofs.«140618_j16037407883702_2_alg».proof.Proof.KIPay

/-!
# The accumulator block as a sum of tile sums

The running contents of the accumulator block restart at every position that is a multiple of 64 (a
sample's first tile) and otherwise add the tile's masked sum to what the position before left.  So
at the ideal values, where a float is an extended real, after the `k`-th tile of sample `b` every
lane holds the sum of the sample's first `k + 1` tile sums, and after the sample's last tile the sum of
all its 64 tile sums.
-/

noncomputable section

namespace Cert.KernelIdeal.Hand

open Cert.KernelIdeal Cert.KernelIdeal.Gen
open Idealize.ShloMosaic Idealize.ShloMosaic.ValueIdx
open Idealize.SL Idealize.SL.Sem

/-! ## The two cases of the recursion, at any float instance -/

section AnyInstance
variable {F : FTy → Type} [FloatOps F]
variable (m : (ℓ : Loc nD τ sig) → Buf (Elt F) ℓ)

/-- The running contents depend on the position only through its value. -/
theorem acc_cast (c : Dev nD) {n n' : ℕ} (e : n = n') (h : n < cfg0.N) (h' : n' < cfg0.N) :
    acc m c n h = acc m c n' h' := by
  subst e; rfl

/-- At a multiple of 64 the block restarts: zero plus the tile's sum. -/
theorem acc_first (c : Dev nD) (n : ℕ) (h : n < cfg0.N) (h0 : n % 64 = 0) :
    acc m c n h = k0_pay1 (tileSum m c ⟨n, h⟩) (k0_pay4 (k0_pay2 (F := F))) := by
  cases n with
  | zero => rfl
  | succ n =>
    show (if (n + 1) % 64 = 0 then _ else _) = _
    rw [if_pos h0]

/-- Elsewhere the block holds what the position before left, plus the tile's sum. -/
theorem acc_next (c : Dev nD) (n : ℕ) (h : n < cfg0.N) (h0 : ¬ n % 64 = 0) :
    acc m c n h = k0_pay1 (tileSum m c ⟨n, h⟩) (k0_pay4 (acc m c (n - 1) (by omega))) := by
  cases n with
  | zero => exact absurd rfl h0
  | succ n =>
    show (if (n + 1) % 64 = 0 then _ else _) = _
    rw [if_neg h0]
    rfl

end AnyInstance

/-! ## At the ideal values: partial sums of the tile sums -/

section AtIdeal
variable (m : (ℓ : Loc nD τ sig) → Buf (Elt Ideal) ℓ)

/-- The masked sum of the tile at position `n` as one extended real (zero past the last position). -/
def tileS (c : Dev nD) (n : ℕ) : EReal :=
  if h : n < cfg0.N then tileSum (F := Ideal) m c ⟨n, h⟩ (ix2 (0 : Fin 1) (0 : Fin 1)) else 0

/-- At a position of the grid it is the tile's sum. -/
theorem tileS_of_lt (c : Dev nD) {n : ℕ} (h : n < cfg0.N) :
    tileS m c n = tileSum (F := Ideal) m c ⟨n, h⟩ (ix2 (0 : Fin 1) (0 : Fin 1)) :=
  dif_pos h

/-- After the `k`-th tile of sample `b` every lane holds the sum of the sample's first `k + 1` tile sums
    (the position's bound as a hypothesis). -/
theorem acc_sum_of_lt (c : Dev nD) (b : ℕ) : ∀ (k : ℕ) (_ : k < 64) (h : 64 * b + k < cfg0.N) (y : S1x1x128.Idx),
    acc (F := Ideal) m c (64 * b + k) h y = ∑ k' ∈ Finset.range (k + 1), tileS m c (64 * b + k')
  | 0, _, h, y => by
    rw [acc_first m c _ h (by omega), pay1_apply, pay4_eq, pay2_apply, zero_add, Finset.sum_range_one,
      tileS_of_lt m c h]
  | k + 1, hk, h, y => by
    have h' : 64 * b + k < cfg0.N := by omega
    rw [acc_next m c _ h (by omega), pay1_apply, pay4_eq,
      acc_cast m c (show 64 * b + (k + 1) - 1 = 64 * b + k by omega) _ h',
      acc_sum_of_lt c b k (by omega) h' y, Finset.sum_range_succ _ (k + 1), tileS_of_lt m c h]

/-- The same for a sample `b` below 8, whose positions all lie in the grid. -/
theorem acc_sum (c : Dev nD) (b : ℕ) (hb : b < 8) : ∀ (k : ℕ) (hk : k < 64) (y : S1x1x128.Idx),
    acc (F := Ideal) m c (64 * b + k) (by rw [show cfg0.N = 512 from N_0]; omega) y
      = ∑ k' ∈ Finset.range (k + 1), tileS m c (64 * b + k') :=
  fun k hk y => acc_sum_of_lt m c b k hk _ y

/-- After a sample's last tile every lane holds the sum of the sample's 64 tile sums. -/
theorem acc_last (c : Dev nD) (b : Fin 8) (y : S1x1x128.Idx) :
    acc (F := Ideal) m c (64 * b.val + 63) (by have := b.isLt; rw [show cfg0.N = 512 from N_0]; omega) y
      = ∑ k : Fin 64, tileSum (F := Ideal) m c
          ⟨64 * b.val + k.val, by have := b.isLt; have := k.isLt; rw [show cfg0.N = 512 from N_0]; omega⟩
          (ix2 (0 : Fin 1) (0 : Fin 1)) := by
  refine (acc_sum m c b.val b.isLt 63 (by omega) y).trans ?_
  rw [Finset.sum_range]
  exact Finset.sum_congr rfl fun k _ => tileS_of_lt m c _

end AtIdeal

end Cert.KernelIdeal.Hand
-- ==== Proof.KISum.lean ====
import Mathlib.Algebra.BigOperators.Fin
import Mathlib.Algebra.BigOperators.Group.Finset.Sigma
import Mathlib.Logic.Equiv.Fin.Basic

/-!
# Regrouping a square sum into tiles

A sum over a 4096 × 4096 square, in any additive commutative monoid, is the sum over its
8 × 8 tiles of side 512 of the sums over each tile.  The index `i : Fin 4096` is written
`512 * I + p` with `I : Fin 8` (the tile) and `p : Fin 512` (the position inside the tile), by the
equivalence `Fin 8 × Fin 512 ≃ Fin (8 * 512)`, `(I, p) ↦ p + 512 * I`.
-/

namespace Cert.KernelIdeal.Hand

open Finset

/-- A sum over `Fin 4096` is a sum over eight consecutive stretches of length 512. -/
theorem sum_split_512 {M : Type*} [AddCommMonoid M] (g : Fin 4096 → M) :
    ∑ i : Fin 4096, g i
      = ∑ I : Fin 8, ∑ p : Fin 512, g ⟨512 * I.val + p.val, by omega⟩ := by
  have e : ∑ x : Fin 8 × Fin 512, g (finProdFinEquiv x) = ∑ i : Fin 4096, g i :=
    Equiv.sum_comp (finProdFinEquiv : Fin 8 × Fin 512 ≃ Fin 4096) g
  rw [← e, Fintype.sum_prod_type]
  refine Finset.sum_congr rfl fun I _ => Finset.sum_congr rfl fun p _ => ?_
  refine congrArg g (Fin.ext ?_)
  show p.val + 512 * I.val = 512 * I.val + p.val
  omega

/-- A sum over `Fin 64` is a sum over eight consecutive stretches of length 8. -/
theorem sum_split_8 {M : Type*} [AddCommMonoid M] (g : Fin 64 → M) :
    ∑ k : Fin 64, g k
      = ∑ I : Fin 8, ∑ J : Fin 8, g ⟨8 * I.val + J.val, by omega⟩ := by
  have e : ∑ x : Fin 8 × Fin 8, g (finProdFinEquiv x) = ∑ k : Fin 64, g k :=
    Equiv.sum_comp (finProdFinEquiv : Fin 8 × Fin 8 ≃ Fin 64) g
  rw [← e, Fintype.sum_prod_type]
  refine Finset.sum_congr rfl fun I _ => Finset.sum_congr rfl fun J _ => ?_
  refine congrArg g (Fin.ext ?_)
  show J.val + 8 * I.val = 8 * I.val + J.val
  omega

/-- The sum over the square is the sum over the 8 × 8 tiles of the sums over each tile
(inside a tile: outer sum over the second coordinate, inner sum over the first). -/
theorem sum_tiles {M : Type*} [AddCommMonoid M] (f : Fin 4096 → Fin 4096 → M) :
    ∑ I : Fin 8, ∑ J : Fin 8, ∑ q : Fin 512, ∑ p : Fin 512,
        f ⟨512 * I.val + p.val, by omega⟩ ⟨512 * J.val + q.val, by omega⟩
      = ∑ i : Fin 4096, ∑ j : Fin 4096, f i j := by
  rw [sum_split_512 (fun i => ∑ j : Fin 4096, f i j)]
  refine Finset.sum_congr rfl fun I _ => ?_
  -- inside one row of tiles: split the second coordinate, then bring the tile's column
  -- and the position inside the column to the front
  have h : ∀ p : Fin 512, ∑ j : Fin 4096, f ⟨512 * I.val + p.val, by omega⟩ j
      = ∑ J : Fin 8, ∑ q : Fin 512,
          f ⟨512 * I.val + p.val, by omega⟩ ⟨512 * J.val + q.val, by omega⟩ :=
    fun p => sum_split_512 (fun j => f ⟨512 * I.val + p.val, by omega⟩ j)
  refine Eq.symm ((Finset.sum_congr rfl fun p _ => h p).trans ?_)
  refine Finset.sum_comm.trans ?_
  exact Finset.sum_congr rfl fun J _ => Finset.sum_comm

/-- The same with the 64 tiles numbered by one index `k = 8 * I + J`. -/
theorem sum_tiles64 {M : Type*} [AddCommMonoid M] (f : Fin 4096 → Fin 4096 → M) :
    ∑ k : Fin 64, ∑ q : Fin 512, ∑ p : Fin 512,
        f ⟨512 * (k.val / 8) + p.val, by omega⟩ ⟨512 * (k.val % 8) + q.val, by omega⟩
      = ∑ i : Fin 4096, ∑ j : Fin 4096, f i j := by
  rw [sum_split_8 (fun k => ∑ q : Fin 512, ∑ p : Fin 512,
        f ⟨512 * (k.val / 8) + p.val, by omega⟩ ⟨512 * (k.val % 8) + q.val, by omega⟩),
    ← sum_tiles f]
  refine Finset.sum_congr rfl fun I _ => Finset.sum_congr rfl fun J _ =>
    Finset.sum_congr rfl fun q _ => Finset.sum_congr rfl fun p _ => ?_
  have hI : (8 * I.val + J.val) / 8 = I.val := by omega
  have hJ : (8 * I.val + J.val) % 8 = J.val := by omega
  exact congrArg₂ f (Fin.ext (by show 512 * ((8 * I.val + J.val) / 8) + p.val = _; rw [hI]))
    (Fin.ext (by show 512 * ((8 * I.val + J.val) % 8) + q.val = _; rw [hJ]))

end Cert.KernelIdeal.Hand
-- ==== Proof.KIValue.lean ====
/-
  The idealized kernel's value.

  Sample b's entry of the per-sample array is the sum, over the sample's 64 tiles k = 8 I + J, of the tile's masked sum;
  the tile's masked sum is the sum over q, p < 512 of the reference's summand at row 512 I + p and column 512 J + q
  (the input blocks are those entries of the normalised scores and of the two masks); and the 64 x 512 x 512 summands are
  the 4096 x 4096 summands of the reference's double sum, each once: a finite sum in a commutative monoid does not depend
  on how it is grouped — on the extended reals too, infinite summands included. The host operations after the region are
  the reference's own, applied to that array.
-/
import proofs.«140618_j16037407883702_2_alg».proof.Proof.KITail
import proofs.«140618_j16037407883702_2_alg».proof.Proof.KIFinal
import proofs.«140618_j16037407883702_2_alg».proof.Proof.KIBlocks
import proofs.«140618_j16037407883702_2_alg».proof.Proof.KIAccSum
import proofs.«140618_j16037407883702_2_alg».proof.Proof.KISum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- One summand: the kernel's and the reference's are the same expression of the same three entries. -/
theorem term_eq (xn pos neg : FVec Ideal ⟨2, ![8, 4096]⟩ .f32) (B b : Fin 8) (I i J j : Fin 4096)
    (hB : B = b) (hI : I = i) (hJ : J = j) :
    tterm (xn (ix2 B I)) (xn (ix2 B J)) (pos (ix2 B I)) (neg (ix2 B J)) = Cert.Spec.term xn pos neg b i j := by
  subst hB hI hJ; rfl

/-- Tile k = 8 I + J of sample b: its masked sum is the reference's summands over rows 512 I .. and columns 512 J .. -/
theorem tile_eq (c : Dev nD) (b : Fin 8) (k : Fin 64) (hlt : 64 * b.val + k.val < cfg0.N) :
    tileSum (F := Ideal) m c ⟨64 * b.val + k.val, hlt⟩ (ix2 (0 : Fin 1) (0 : Fin 1))
      = ∑ q : Fin 512, ∑ p : Fin 512, Cert.Spec.term (Cert.Spec.xn (arg0 m c)) (Cert.Spec.pos (arg1 m c)) (Cert.Spec.neg (arg1 m c)) b
          ⟨512 * (k.val / 8) + p.val, by have := k.isLt; have := p.isLt; omega⟩ ⟨512 * (k.val % 8) + q.val, by have := k.isLt; have := q.isLt; omega⟩ := by
  have hk := k.isLt
  have hb := b.isLt
  unfold tileSum
  rw [pay3_apply]
  refine Finset.sum_congr rfl fun q _ => Finset.sum_congr rfl fun p _ => ?_
  have hp := p.isLt
  have hq := q.isLt
  rw [iblk0_apply, iblk1_apply, iblk2_apply, iblk3_apply]
  rw [show V m c main_v12 = _ from Ve_v12 m c, show V m c main_v13 = _ from Ve_v13 m c, show V m c main_v14 = _ from Ve_v14 m c]
  rw [cast3_apply, cast3_apply, cast3_apply, cast3_apply]
  exact term_eq _ _ _ _ _ _ _ _ _
    (Fin.ext (by show (64 * b.val + k.val) / 64 = b.val; omega))
    (Fin.ext (by show 512 * ((64 * b.val + k.val) / 8 % 8) + p.val = 512 * (k.val / 8) + p.val; omega))
    (Fin.ext (by show 512 * ((64 * b.val + k.val) % 8) + q.val = 512 * (k.val % 8) + q.val; omega))

/-- The per-sample sums the host operations after the region read: the reference's. -/
theorem per_kernel (c : Dev nD) :
    shapeCast S8 (extractStridedSlice S8x1x1 ![0, 0, 0] ((dats m 0 c).arrAt 4 cfg0.N) slices_S8x1x128_S8x1x1_0_0_0) shapeCasts_S8x1x1_S8
      = Cert.Spec.per (Cert.Spec.xn (arg0 m c)) (Cert.Spec.pos (arg1 m c)) (Cert.Spec.neg (arg1 m c)) := by
  funext j
  obtain ⟨b, rfl⟩ : ∃ b : Fin 8, j = ix1 b := ⟨j 0, eq_ix1 j⟩
  rw [per_slice, final_sums]
  show acc m c (64 * b.val + 63) _ (lane (ix3 b (0 : Fin 1) (0 : Fin 128)))
    = ∑ i : Fin 4096, ∑ j : Fin 4096, Cert.Spec.term (Cert.Spec.xn (arg0 m c)) (Cert.Spec.pos (arg1 m c)) (Cert.Spec.neg (arg1 m c)) b i j
  rw [acc_last m c b]
  rw [← sum_tiles64 (fun i j => Cert.Spec.term (Cert.Spec.xn (arg0 m c)) (Cert.Spec.pos (arg1 m c)) (Cert.Spec.neg (arg1 m c)) b i j)]
  exact Finset.sum_congr rfl fun k _ => tile_eq m c b k _

theorem mem_v31 : Proc.devRef .tc main_v31 ∈ (UC : Finset (DevRef τ sig)) := by decide
theorem mem_arg0 : Proc.devRef .tc main_arg0 ∈ (UC : Finset (DevRef τ sig)) := by decide
theorem mem_arg1 : Proc.devRef .tc main_arg1 ∈ (UC : Finset (DevRef τ sig)) := by decide

/-- The idealized kernel's run, read: the result is the common tail of the reference's per-sample sums, the arguments
    are unchanged. -/
theorem run_value : θ_run defs (onTc (τ := τ) (main (F := Ideal))) ⟨m, fun _ => 0, ρ⟩ (fun r => ∀ c : Dev nD,
      r.2.mem ((c.tc : Thread nD τ).loc main_v31) = Cert.Spec.tail (Cert.Spec.pos (arg1 m c)) (Cert.Spec.neg (arg1 m c)) (Cert.Spec.per (Cert.Spec.xn (arg0 m c)) (Cert.Spec.pos (arg1 m c)) (Cert.Spec.neg (arg1 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ mem_v31).trans ((V4_v31 m c).trans (congrArg (Cert.Spec.tail (Cert.Spec.pos (arg1 m c)) (Cert.Spec.neg (arg1 m c))) (per_kernel m c))),
       (h c _ mem_arg0).trans (V4_arg0 m c), (h c _ mem_arg1).trans (V4_arg1 m c)⟩)
    (run_main m ρ)

end Cert.KernelIdeal.Hand

end
-- ==== Proof.RefPer.lean ====
/-
  The reference's per-row sum read as a double sum.

  The reference builds the whole [8,4096,4096] array of summands — at (b,i,j) the margin
  1/2 - (xn[b,i] - xn[b,j]) cut at zero, times pos[b,i] * neg[b,j] — from broadcasts of the three
  [8,4096] arrays along a new last axis (the column operand, constant in j) and a new middle axis
  (the row operand, constant in i), and sums it over its two last axes from zero. Read at (b,i,j) each
  broadcast is its operand at (b,i) or (b,j); the set of indices that drop to row b is exactly
  the indices whose first coordinate is b, so the sum over that set is the double sum over i and j.
  Every step is a re-indexing of a finite sum; no property of the summands is used.
-/
import proofs.«140618_j16037407883702_2_alg».proof.Proof.RefSpec
import Idealize.ShloMosaic.Lib.IdealHost
import Idealize.ShloMosaic.Lib.Pipeline.Value

noncomputable section

open scoped BigOperators

namespace Cert.Spec

open Idealize.ShloMosaic Idealize.ShloMosaic.ValueIdx

/-- The array of all summands, as the reference's host operations build it. -/
def pairs (xn pos neg : FVec Ideal ⟨2, ![8, 4096]⟩ .f32) : FVec Ideal ⟨3, ![8, 4096, 4096]⟩ .f32 :=
  mulf
    (maximumf
      (subf
        (broadcastInDim ⟨3, ![8, 4096, 4096]⟩ ![] (by decide) (constant (F := Ideal) ⟨0, ![]⟩ .f32 0x3F000000#32))
        (subf
          (broadcastInDim ⟨3, ![8, 4096, 4096]⟩ ![0, 1, 2] (by decide)
            (broadcastInDim ⟨3, ![8, 4096, 1]⟩ ![0, 1] (by decide) xn))
          (broadcastInDim ⟨3, ![8, 4096, 4096]⟩ ![0, 1, 2] (by decide)
            (broadcastInDim ⟨3, ![8, 1, 4096]⟩ ![0, 2] (by decide) xn))))
      (broadcastInDim ⟨3, ![8, 4096, 4096]⟩ ![] (by decide) (constant (F := Ideal) ⟨0, ![]⟩ .f32 0x00000000#32)))
    (mulf
      (broadcastInDim ⟨3, ![8, 4096, 4096]⟩ ![0, 1, 2] (by decide)
        (broadcastInDim ⟨3, ![8, 4096, 1]⟩ ![0, 1] (by decide) pos))
      (broadcastInDim ⟨3, ![8, 4096, 4096]⟩ ![0, 1, 2] (by decide)
        (broadcastInDim ⟨3, ![8, 1, 4096]⟩ ![0, 2] (by decide) neg)))

/-- The reference's per-row sum: the summand array added up over its two last axes, from zero. -/
def perHost (xn pos neg : FVec Ideal ⟨2, ![8, 4096]⟩ .f32) : FVec Ideal ⟨1, ![8]⟩ .f32 :=
  Host.reduceAdd (F := Ideal) (axes := [1, 2]) (pairs xn pos neg)
    (constant (F := Ideal) ⟨0, ![]⟩ .f32 0x00000000#32) (by decide) (by decide)

/-- An [8,4096] array spread along a new last axis, then along that axis to 4096 columns: at (b,i,j)
    it is the array at (b,i). -/
theorem spreadCols_apply (x : FVec Ideal ⟨2, ![8, 4096]⟩ .f32) (b : Fin 8) (i j : Fin 4096)
    (h1 : (⟨3, ![8, 4096, 1]⟩ : Shape).BroadcastsInDim ⟨3, ![8, 4096, 4096]⟩ ![0, 1, 2])
    (h0 : (⟨2, ![8, 4096]⟩ : Shape).BroadcastsInDim ⟨3, ![8, 4096, 1]⟩ ![0, 1]) :
    broadcastInDim ⟨3, ![8, 4096, 4096]⟩ ![0, 1, 2] h1 (broadcastInDim ⟨3, ![8, 4096, 1]⟩ ![0, 1] h0 x) (ix3 b i j)
      = x (ix2 b i) := by
  refine (broadcastInDim_apply _ h1 _ (ix3 b i j) (ix3 b i (⟨0, Nat.one_pos⟩ : Fin 1)) ?_).trans ?_
  · intro d
    match d with
    | ⟨0, _⟩ => rfl
    | ⟨1, _⟩ => rfl
    | ⟨2, _⟩ => rfl
  · refine broadcastInDim_apply _ h0 x _ (ix2 b i) ?_
    intro d
    match d with
    | ⟨0, _⟩ => rfl
    | ⟨1, _⟩ => rfl

/-- An [8,4096] array spread along a new middle axis, then along that axis to 4096 rows: at (b,i,j)
    it is the array at (b,j). -/
theorem spreadRows_apply (x : FVec Ideal ⟨2, ![8, 4096]⟩ .f32) (b : Fin 8) (i j : Fin 4096)
    (h1 : (⟨3, ![8, 1, 4096]⟩ : Shape).BroadcastsInDim ⟨3, ![8, 4096, 4096]⟩ ![0, 1, 2])
    (h0 : (⟨2, ![8, 4096]⟩ : Shape).BroadcastsInDim ⟨3, ![8, 1, 4096]⟩ ![0, 2]) :
    broadcastInDim ⟨3, ![8, 4096, 4096]⟩ ![0, 1, 2] h1 (broadcastInDim ⟨3, ![8, 1, 4096]⟩ ![0, 2] h0 x) (ix3 b i j)
      = x (ix2 b j) := by
  refine (broadcastInDim_apply _ h1 _ (ix3 b i j) (ix3 b (⟨0, Nat.one_pos⟩ : Fin 1) j) ?_).trans ?_
  · intro d
    match d with
    | ⟨0, _⟩ => rfl
    | ⟨1, _⟩ => rfl
    | ⟨2, _⟩ => rfl
  · refine broadcastInDim_apply _ h0 x _ (ix2 b j) ?_
    intro d
    match d with
    | ⟨0, _⟩ => rfl
    | ⟨1, _⟩ => rfl

/-- The summand array at (b,i,j) is the summand of row b at the pair (i,j). -/
theorem pairs_apply (xn pos neg : FVec Ideal ⟨2, ![8, 4096]⟩ .f32) (b : Fin 8) (i j : Fin 4096) :
    pairs xn pos neg (ix3 b i j) = term xn pos neg b i j := by
  unfold pairs term
  rw [mulf_apply, maximumf_apply, subf_apply, subf_apply, mulf_apply,
    broadcastInDim_scalar_apply, broadcastInDim_scalar_apply, constant_apply, constant_apply,
    spreadCols_apply, spreadRows_apply, spreadCols_apply, spreadRows_apply]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two last coordinates of (a,i,j) leaves a. -/
theorem drop_ix3 (h : (⟨3, ![8, 4096, 4096]⟩ : Shape).ReducesTo [1, 2] ⟨1, ![8]⟩) (a : Fin 8) (i j : Fin 4096) :
    h.drop (ix3 a i j) = ix1 a := by
  funext d
  match d with
  | ⟨0, _⟩ => exact Fin.ext (Shape.ReducesTo.drop_apply_val_of_eq h (ix3 a i j) ⟨0, Nat.one_pos⟩ 0)

/-- The reference's per-row sum is the double sum of the summands. -/
theorem perHost_eq (xn pos neg : FVec Ideal ⟨2, ![8, 4096]⟩ .f32) : perHost xn pos neg = per xn pos neg := by
  funext b
  obtain ⟨b0, rfl⟩ : ∃ b0 : Fin 8, b = ix1 b0 := ⟨b 0, eq_ix1 b⟩
  unfold perHost per
  rw [hostReduceAdd_apply, constant_apply]
  unfold Ideal.hostReduceAdd
  rw [Ideal.ofBits_zero_f32, zero_add, Finset.sum_filter, sum_idx3, Finset.sum_eq_single b0]
  · refine Finset.sum_congr rfl fun i _ => Finset.sum_congr rfl fun j _ => ?_
    rw [if_pos (drop_ix3 _ b0 i j), pairs_apply]
  · intro a _ hne
    refine Finset.sum_eq_zero fun i _ => Finset.sum_eq_zero fun j _ => if_neg fun e => hne ?_
    rw [drop_ix3] at e
    exact congrFun e 0
  · intro hb
    exact absurd (Finset.mem_univ b0) hb

end Cert.Spec

end
-- ==== Proof.RefRun.lean ====
/-
  The reference program's run, in the specification's terms.

  The reference is a straight line of host operations and launches nothing: its run ends with the two
  argument arrays as they were and the result buffer at the operations' composed term of the two
  argument arrays (the run module this one imports). That term is, stage by stage, the specification's:
  the rows, their maxima and the scaled rows xn, the two indicators pos and neg, the summand array
  added up over its two last axes (perHost), and the closing stages tail, so the two are equal by
  unfolding the definitions. The per-row sum is then read as the double sum over the pairs (perHost_eq).
-/
import proofs.«140618_j16037407883702_2_alg».proof.Proof.RefRunGen
import proofs.«140618_j16037407883702_2_alg».proof.Proof.RefPer

noncomputable section

namespace Cert.RefSide

open Cert.ReferenceIdeal Cert.ReferenceIdeal.Gen Idealize.ShloMosaic Idealize.ShloMosaic.TcCoe Idealize.SL.Sem

/-- The first argument array as device c finds it at launch. -/
abbrev arg0 (m : (ℓ : Loc nD τ sig) → Buf (Elt Ideal) ℓ) (c : Dev nD) : FVec Ideal ⟨3, ![8, 64, 64]⟩ .f32 :=
  m ((c.tc : Thread nD τ).loc main_arg0)
/-- The second argument array (the mask) as device c finds it at launch. -/
abbrev arg1 (m : (ℓ : Loc nD τ sig) → Buf (Elt Ideal) ℓ) (c : Dev nD) : FVec Ideal ⟨3, ![8, 64, 64]⟩ .f32 :=
  m ((c.tc : Thread nD τ).loc main_arg1)

set_option maxRecDepth 8192 in
/-- The run with the per-row sum still as the host's sum of the summand array over its two last axes. -/
theorem run_host (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
          = Cert.Spec.tail (Cert.Spec.pos (arg1 m c)) (Cert.Spec.neg (arg1 m c))
              (Cert.Spec.perHost (Cert.Spec.xn (arg0 m c)) (Cert.Spec.pos (arg1 m c)) (Cert.Spec.neg (arg1 m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩)
    (Cert.ReferenceIdeal.ValueP.run (F := Ideal) m ρ)

/-- The reference's run: it terminates with its result at the closing stages of the two indicators and
    the double sums of the summands over the pairs of each row, and leaves both argument arrays as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
          = Cert.Spec.tail (Cert.Spec.pos (arg1 m c)) (Cert.Spec.neg (arg1 m c))
              (Cert.Spec.per (Cert.Spec.xn (arg0 m c)) (Cert.Spec.pos (arg1 m c)) (Cert.Spec.neg (arg1 m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [← Cert.Spec.perHost_eq]; exact (h c).1, (h c).2⟩) (run_host m ρ)

end Cert.RefSide

end
-- ==== Proof.lean ====
/-
  The pairwise masked-margin loss: a tiled kernel against its plain reference, on the extended reals.

  Both programs normalise each sample's 4096 scores by the sample's maximum, build the two masks (target above / below
  one half), and need, per sample b, the sum over all pairs (i, j) of max(1/2 - (x_i - x_j), 0) * (pos_i * neg_j). The
  reference forms the 4096 x 4096 array of summands and adds it up; the kernel walks the 8 x 8 tiles of 512 x 512 pairs,
  adds each tile's sum (columns first, then rows) into an accumulator block it zeroes at the sample's first tile, and
  writes the block back after the sample's last tile. Each summand is the same expression of the same three entries in
  both, and a finite sum in a commutative monoid does not depend on its grouping — also when summands are infinite, so no
  finiteness of the inputs is needed. The operations after that (counts of the two masks, the guarded quotient, the
  mean over the eight samples) are the same in both programs.

  The three frames: each program terminates without a fault and leaves its two argument arrays as they were — the
  kernel's two programs by the run of their five segments (host operations, the region, three stretches of host
  operations), in which no operation writes an argument; the reference by its run with the result dropped. The ideal
  pass rewrote nothing, so the idealization is the program's own text.
-/
import proofs.«140618_j16037407883702_2_alg».proof.Defs
import proofs.«140618_j16037407883702_2_alg».proof.Proof.Gen.Kernel
import proofs.«140618_j16037407883702_2_alg».proof.Proof.Gen.KernelIdeal
import proofs.«140618_j16037407883702_2_alg».proof.Proof.Gen.ReferenceIdeal
import proofs.«140618_j16037407883702_2_alg».proof.Proof.Gen.Pre_finite_inputs
import proofs.«140618_j16037407883702_2_alg».proof.Proof.KBKeep
import proofs.«140618_j16037407883702_2_alg».proof.Proof.KIValue
import proofs.«140618_j16037407883702_2_alg».proof.Proof.RefRun
import Idealize.ShloMosaic.Adequacy
import Idealize.ShloMosaic.Init

noncomputable section

namespace Cert.Proof

open Idealize.ShloMosaic Idealize.ShloMosaic.TcCoe Idealize.SL.Sem

theorem kernel_arg0_unscoped : Proc.devRef .tc Cert.Kernel.main_arg0 ∈ (Cert.Kernel.Hand.UC : Finset (DevRef Cert.Kernel.τ Cert.Kernel.sig)) := by decide
theorem kernel_arg1_unscoped : Proc.devRef .tc Cert.Kernel.main_arg1 ∈ (Cert.Kernel.Hand.UC : Finset (DevRef Cert.Kernel.τ Cert.Kernel.sig)) := by decide

/-- The word-level kernel runs and leaves its arguments as they were: no operation of its five segments writes them. -/
theorem frame_k : Cert.frame_Kernel := fun m ρ _ =>
  (θ_run (Cert.Kernel.defs (F := Bits)) _ _).mono (fun r h c =>
      ⟨(h c _ kernel_arg0_unscoped).trans (Cert.Kernel.Hand.V4_arg0 m c),
       (h c _ kernel_arg1_unscoped).trans (Cert.Kernel.Hand.V4_arg1 m c)⟩)
    (Cert.Kernel.Hand.run_main (F := Bits) m ρ)

/-- The idealized kernel likewise: its run read at the result, the result dropped. -/
theorem frame_ki : Cert.frame_KernelIdeal := fun m ρ _ =>
  (θ_run (Cert.KernelIdeal.defs (F := Ideal)) _ _).mono (fun _ h c => (h c).2) (Cert.KernelIdeal.Hand.run_value m ρ)

/-- The reference: its run with the result dropped. -/
theorem frame_ri : Cert.frame_ReferenceIdeal := fun m ρ _ =>
  (θ_run (Cert.ReferenceIdeal.defs (F := Ideal)) _ _).mono (fun _ h c => (h c).2) (Cert.RefSide.run m ρ)

/-- The ideal pass rewrote no operation. -/
theorem preserves : Cert.preserves_Kernel_KernelIdeal := trivial

/-- From arguments that agree, both results are the common tail of the same per-sample double sums. -/
theorem algebraic : Cert.algebraic_KernelIdeal_ReferenceIdeal := by
  intro m ρ m' ρ' _ hagree
  refine ⟨_, Cert.KernelIdeal.Hand.run_value m ρ, ?_⟩
  refine (θ_run (Cert.ReferenceIdeal.defs (F := Ideal)) _ _).mono (fun _ h c => ⟨(h c).1.trans ?_, (h c).2⟩)
    (Cert.RefSide.run m' ρ')
  dsimp only [Cert.RefSide.arg0, Cert.RefSide.arg1, Cert.KernelIdeal.Hand.arg0, Cert.KernelIdeal.Hand.arg1]
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
